-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x21x32x32 : Shape := ⟨4, ![4, 21, 32, 32]⟩
abbrev S1 : Shape := ⟨1, ![1]⟩
abbrev S4x32x32 : Shape := ⟨3, ![4, 32, 32]⟩
abbrev S2x4x8x1025x1025 : Shape := ⟨5, ![2, 4, 8, 1025, 1025]⟩
abbrev S2x4x8x1024x1024 : Shape := ⟨5, ![2, 4, 8, 1024, 1024]⟩
abbrev S_ : Shape := ⟨0, ![]⟩

class Facts : Prop where
  bcast_S_S4x21x32x32 : S_.BroadcastsInDim S4x21x32x32 (![] : Fin 0 → Fin S4x21x32x32.rank)
  reducesTo_S4x21x32x32_S_d0_1_2_3 : S4x21x32x32.ReducesTo [0, 1, 2, 3] S_
  h_S_ : 0 < S_.numel
  bcast_S_S1 : S_.BroadcastsInDim S1 (![] : Fin 0 → Fin S1.rank)
  reducesTo_S1_S_d0 : S1.ReducesTo [0] S_
  bcast_S_S2x4x8x1025x1025 : S_.BroadcastsInDim S2x4x8x1025x1025 (![] : Fin 0 → Fin S2x4x8x1025x1025.rank)
  reducesTo_S2x4x8x1025x1025_S_d0_1_2_3_4 : S2x4x8x1025x1025.ReducesTo [0, 1, 2, 3, 4] S_
  bcast_S_S2x4x8x1024x1024 : S_.BroadcastsInDim S2x4x8x1024x1024 (![] : Fin 0 → Fin S2x4x8x1024x1024.rank)
  reducesTo_S2x4x8x1024x1024_S_d0_1_2_3_4 : S2x4x8x1024x1024.ReducesTo [0, 1, 2, 3, 4] S_

variable [Facts]

def fn_part1 {F : FTy → Type} [FloatOps F] (main_arg6 : FVec F S2x4x8x1024x1024 .f32) (main_v13 : IVec S_ 1) (main_v16 : IVec S2x4x8x1025x1025 1) : IVec S_ 1 :=
  let main_c_5 : IVec S_ 1 := constantI S_ 1 1#1
  let main_v17 : IVec S_ 1 := (fun x v => Host.reduce IntOp.andi x v reducesTo_S2x4x8x1025x1025_S_d0_1_2_3_4 h_S_) main_v16 main_c_5
  let main_v18 : IVec S_ 1 := andi main_v13 main_v17
  let main_v19 : FVec F S2x4x8x1024x1024 .f32 := Host.absf main_arg6
  let main_cst_6 : FVec F S_ .f32 := constant S_ .f32 0x7F800000#32
  let main_v20 : FVec F S2x4x8x1024x1024 .f32 := broadcastInDim S2x4x8x1024x1024 ![] bcast_S_S2x4x8x1024x1024 main_cst_6
  let main_v21 : IVec S2x4x8x1024x1024 1 := cmpf .olt main_v19 main_v20
  let main_c_7 : IVec S_ 1 := constantI S_ 1 1#1
  let main_v22 : IVec S_ 1 := (fun x v => Host.reduce IntOp.andi x v reducesTo_S2x4x8x1024x1024_S_d0_1_2_3_4 h_S_) main_v21 main_c_7
  let main_v23 : IVec S_ 1 := andi main_v18 main_v22
  main_v23

def fn {F : FTy → Type} [FloatOps F] (main_arg0 : FVec F S4x21x32x32 .f32) (main_arg1 : FVec F S1 .f32) (main_arg2 : FVec F S1 .f32) (main_arg3 : IVec S4x32x32 32) (main_arg4 : IVec S4x32x32 32) (main_arg5 : FVec F S2x4x8x1025x1025 .f32) (main_arg6 : FVec F S2x4x8x1024x1024 .f32) : IVec S_ 1 :=
  let main_v0 : FVec F S4x21x32x32 .f32 := Host.absf main_arg0
  let main_cst : FVec F S_ .f32 := constant S_ .f32 0x7F800000#32
  let main_v1 : FVec F S4x21x32x32 .f32 := broadcastInDim S4x21x32x32 ![] bcast_S_S4x21x32x32 main_cst
  let main_v2 : IVec S4x21x32x32 1 := cmpf .olt main_v0 main_v1
  let main_c : IVec S_ 1 := constantI S_ 1 1#1
  let main_v3 : IVec S_ 1 := (fun x v => Host.reduce IntOp.andi x v reducesTo_S4x21x32x32_S_d0_1_2_3 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S2x4x8x1025x1025 .f32 := Host.absf main_arg5
  let main_cst_4 : FVec F S_ .f32 := constant S_ .f32 0x7F800000#32
  let main_v15 : FVec F S2x4x8x1025x1025 .f32 := broadcastInDim S2x4x8x1025x1025 ![] bcast_S_S2x4x8x1025x1025 main_cst_4
  let main_v16 : IVec S2x4x8x1025x1025 1 := cmpf .olt main_v14 main_v15
  fn_part1 (F := F) main_arg6 main_v13 main_v16
-- ==== Kernel.lean ====
abbrev S4x21x32x32 : Shape := ⟨4, ![4, 21, 32, 32]⟩
abbrev S1 : Shape := ⟨1, ![1]⟩
abbrev S4x32x32 : Shape := ⟨3, ![4, 32, 32]⟩
abbrev S2x4x8x1025x1025 : Shape := ⟨5, ![2, 4, 8, 1025, 1025]⟩
abbrev S2x4x8x1024x1024 : Shape := ⟨5, ![2, 4, 8, 1024, 1024]⟩
abbrev S_ : Shape := ⟨0, ![]⟩
abbrev S4x1x32x32 : Shape := ⟨4, ![4, 1, 32, 32]⟩
abbrev S4x21x1024 : Shape := ⟨3, ![4, 21, 1024]⟩
abbrev S4x1024x21 : Shape := ⟨3, ![4, 1024, 21]⟩
abbrev S1x1x1x1025x1025 : Shape := ⟨5, ![1, 1, 1, 1025, 1025]⟩
abbrev S1x1x1x1024x1024 : Shape := ⟨5, ![1, 1, 1, 1024, 1024]⟩
abbrev S1x1024x21 : Shape := ⟨3, ![1, 1024, 21]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S1x1x1x128x1024 : Shape := ⟨5, ![1, 1, 1, 128, 1024]⟩
abbrev S1024x21 : Shape := ⟨2, ![1024, 21]⟩
abbrev S4x1024 : Shape := ⟨2, ![4, 1024]⟩
abbrev S4x1024x1 : Shape := ⟨3, ![4, 1024, 1]⟩

abbrev nBuf : Space → Nat
  | .hbm => 45
  | .vmem => 10
  | .smem => 0
  | _ => 0

abbrev bufTy : (tb : Table) → Fin (tcTables nBuf tb) → BufTy
  | .hbm, ⟨0, _⟩ => ⟨S4x21x32x32, .f32⟩
  | .hbm, ⟨1, _⟩ => ⟨S1, .f32⟩
  | .hbm, ⟨2, _⟩ => ⟨S1, .f32⟩
  | .hbm, ⟨3, _⟩ => ⟨S4x32x32, .i32⟩
  | .hbm, ⟨4, _⟩ => ⟨S4x32x32, .i32⟩
  | .hbm, ⟨5, _⟩ => ⟨S2x4x8x1025x1025, .f32⟩
  | .hbm, ⟨6, _⟩ => ⟨S2x4x8x1024x1024, .f32⟩
  | .hbm, ⟨7, _⟩ => ⟨S_, .f32⟩
  | .hbm, ⟨8, _⟩ => ⟨S4x32x32, .f32⟩
  | .hbm, ⟨9, _⟩ => ⟨S_, .f32⟩
  | .hbm, ⟨10, _⟩ => ⟨S4x32x32, .f32⟩
  | .hbm, ⟨11, _⟩ => ⟨S4x32x32, .f32⟩
  | .hbm, ⟨12, _⟩ => ⟨S4x1x32x32, .f32⟩
  | .hbm, ⟨13, _⟩ => ⟨S4x21x32x32, .f32⟩
  | .hbm, ⟨14, _⟩ => ⟨S4x21x32x32, .f32⟩
  | .hbm, ⟨15, _⟩ => ⟨S4x21x32x32, .f32⟩
  | .hbm, ⟨16, _⟩ => ⟨S_, .f32⟩
  | .hbm, ⟨17, _⟩ => ⟨S4x32x32, .f32⟩
  | .hbm, ⟨18, _⟩ => ⟨S4x1x32x32, .f32⟩
  | .hbm, ⟨19, _⟩ => ⟨S4x21x32x32, .f32⟩
  | .hbm, ⟨20, _⟩ => ⟨S4x21x32x32, .f32⟩
  | .hbm, ⟨21, _⟩ => ⟨S4x21x1024, .f32⟩
  | .hbm, ⟨22, _⟩ => ⟨S4x1024x21, .f32⟩
  | .hbm, ⟨23, _⟩ => ⟨S4x1024x21, .f32⟩
  | .hbm, ⟨24, _⟩ => ⟨S_, .f32⟩
  | .hbm, ⟨25, _⟩ => ⟨S4x1024, .f32⟩
  | .hbm, ⟨26, _⟩ => ⟨S4x1024x1, .f32⟩
  | .hbm, ⟨27, _⟩ => ⟨S4x1024x21, .f32⟩
  | .hbm, ⟨28, _⟩ => ⟨S4x1024x21, .f32⟩
  | .hbm, ⟨29, _⟩ => ⟨S4x32x32, .f32⟩
  | .hbm, ⟨30, _⟩ => ⟨S4x1024x1, .f32⟩
  | .hbm, ⟨31, _⟩ => ⟨S_, .f32⟩
  | .hbm, ⟨32, _⟩ => ⟨S_, .f32⟩
  | .hbm, ⟨33, _⟩ => ⟨S4x1024x21, .f32⟩
  | .hbm, ⟨34, _⟩ => ⟨S4x1024x21, .f32⟩
  | .hbm, ⟨35, _⟩ => ⟨S4x1024x21, .f32⟩
  | .hbm, ⟨36, _⟩ => ⟨S4x1024x21, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1x1x1x1025x1025, .f32⟩
  | .local _ .vmem, ⟨1, _⟩ => ⟨S1x1x1x1025x1025, .f32⟩
  | .local _ .vmem, ⟨2, _⟩ => ⟨S1x1x1x1024x1024, .f32⟩
  | .local _ .vmem, ⟨3, _⟩ => ⟨S1x1x1x1024x1024, .f32⟩
  | .local _ .vmem, ⟨4, _⟩ => ⟨S1x1024x21, .f32⟩
  | .local _ .vmem, ⟨5, _⟩ => ⟨S1x1024x21, .f32⟩
  | .local _ .vmem, ⟨6, _⟩ => ⟨S1x1024x21, .f32⟩
  | .local _ .vmem, ⟨7, _⟩ => ⟨S1x1024x21, .f32⟩
  | .local _ .vmem, ⟨8, _⟩ => ⟨S1024x1024, .f32⟩
  | .local _ .vmem, ⟨9, _⟩ => ⟨S1024x1024, .f32⟩
  | _, _ => ⟨S4x21x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_mult1 : BitVec 32 :=
  let c0_i32_6 : BitVec 32 := 0#32
  let c128_i32 : BitVec 32 := 128#32
  let v8 : BitVec 32 := Scalar.muli c0_i32_6 c128_i32
  v8
def k0_off1 (c0_i32_6 : BitVec 32) : Fin 2 → Nat :=
  let c128_i32 : BitVec 32 := 128#32
  let v8 : BitVec 32 := Scalar.muli c0_i32_6 c128_i32
  let v9 : BitVec 32 := v8
  let v10 : Index := Scalar.indexCast v9
  let c0_7 : Index := 0#32
  ![v10.toNat, 0]
def k0_off2 (c0_i32_6 : BitVec 32) : Fin 5 → Nat :=
  let c0_8 : Index := 0#32
  let c0_9 : Index := 0#32
  let c0_10 : Index := 0#32
  let c128_i32 : BitVec 32 := 128#32
  let v8 : BitVec 32 := Scalar.muli c0_i32_6 c128_i32
  let v9 : BitVec 32 := v8
  let v16 : Index := Scalar.indexCast v9
  let c0_11 : Index := 0#32
  ![0, 0, 0, v16.toNat, 0]
def k0_mult2 : BitVec 32 :=
  let c1_i32 : BitVec 32 := 1#32
  let c128_i32_15 : BitVec 32 := 128#32
  let v31 : BitVec 32 := Scalar.muli c1_i32 c128_i32_15
  v31
def k0_mult3 : BitVec 32 :=
  let c2_i32 : BitVec 32 := 2#32
  let c128_i32_25 : BitVec 32 := 128#32
  let v54 : BitVec 32 := Scalar.muli c2_i32 c128_i32_25
  v54
def k0_mult4 : BitVec 32 :=
  let c3_i32 : BitVec 32 := 3#32
  let c128_i32_35 : BitVec 32 := 128#32
  let v77 : BitVec 32 := Scalar.muli c3_i32 c128_i32_35
  v77
def k0_mult5 : BitVec 32 :=
  let c4_i32 : BitVec 32 := 4#32
  let c128_i32_45 : BitVec 32 := 128#32
  let v100 : BitVec 32 := Scalar.muli c4_i32 c128_i32_45
  v100
def k0_mult6 : BitVec 32 :=
  let c5_i32 : BitVec 32 := 5#32
  let c128_i32_55 : BitVec 32 := 128#32
  let v123 : BitVec 32 := Scalar.muli c5_i32 c128_i32_55
  v123
def k0_mult7 : BitVec 32 :=
  let c6_i32 : BitVec 32 := 6#32
  let c128_i32_65 : BitVec 32 := 128#32
  let v146 : BitVec 32 := Scalar.muli c6_i32 c128_i32_65
  v146
def k0_mult8 : BitVec 32 :=
  let c7_i32 : BitVec 32 := 7#32
  let c128_i32_75 : BitVec 32 := 128#32
  let v169 : BitVec 32 := Scalar.muli c7_i32 c128_i32_75
  v169
def k0_cond2 (i : grid0.Coords) : BitVec 1 :=
  let arg1 : BitVec 32 := BitVec.ofNat 32 (i 1).val
  let c15_i32 : BitVec 32 := 15#32
  let v192 : BitVec 1 := Scalar.cmpi .eq arg1 c15_i32
  let v193 : BitVec 32 := Scalar.extui v192
  let c0_i32_85 : BitVec 32 := 0#32
  let v194 : BitVec 1 := Scalar.cmpi .ne v193 c0_i32_85
  v194

def cc0_transform_0 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, arg0.toNat, v26.toNat, c0_i32_10.toNat, c0_i32_11.toNat]

def cc0_transform_1 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, arg0.toNat, v26.toNat, c0_i32_10.toNat, c0_i32_11.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1x1025x1025 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S4x21x32x32_S4x32x32_d1 : S4x21x32x32.ReducesTo [1] S4x32x32
  h_S_ : 0 < S_.numel
  bcast_S_S4x32x32 : S_.BroadcastsInDim S4x32x32 (![] : Fin 0 → Fin S4x32x32.rank)
  bcast_S4x32x32_S4x1x32x32_0_2_3 : S4x32x32.BroadcastsInDim S4x1x32x32 (![0, 2, 3] : Fin 3 → Fin S4x1x32x32.rank)
  bcast_S4x1x32x32_S4x21x32x32_0_1_2_3 : S4x1x32x32.BroadcastsInDim S4x21x32x32 (![0, 1, 2, 3] : Fin 4 → Fin S4x21x32x32.rank)
  shapeCasts_S4x21x32x32_S4x21x1024 : S4x21x32x32.ShapeCasts S4x21x1024
  transposes_S4x21x1024_S4x1024x21_0_2_1 : S4x21x1024.Transposes [0, 2, 1] S4x1024x21
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1x1025x1025_S1x1x1x1024x1024_0_0_0_1_1 : ∀ a, (![0, 0, 0, 1, 1] : Fin 5 → Nat) a + S1x1x1x1024x1024.size a ≤ S1x1x1x1025x1025.size a
  h_S1x1x1x1024x1024 : 0 < S1x1x1x1024x1024.numel
  shapeCasts_S1x1x1x1024x1024_S1024x1024 : S1x1x1x1024x1024.ShapeCasts S1024x1024
  h_S128x1024 : 0 < S128x1024.numel
  reduces_S128x1024_S128 : S128x1024.Reduces [1] S128
  shapeCasts_S128_S128x1 : S128.ShapeCasts S128x1
  broadcasts_S128x1_S128x1024 : S128x1.Broadcasts S128x1024
  h_S1x1x1x128x1024 : 0 < S1x1x1x128x1024.numel
  shapeCasts_S1x1x1x128x1024_S128x1024 : S1x1x1x128x1024.ShapeCasts S128x1024
  shapeCasts_S128x1024_S128x1024 : S128x1024.ShapeCasts S128x1024
  bitsLt_bf16_f32 : FTy.bits .bf16 < FTy.bits .f32
  inb_S1x1024x21_S1x1024x21_0_0_0 : ∀ a, (![0, 0, 0] : Fin 3 → Nat) a + S1x1024x21.size a ≤ S1x1024x21.size a
  h_S1x1024x21 : 0 < S1x1024x21.numel
  shapeCasts_S1x1024x21_S1024x21 : S1x1024x21.ShapeCasts S1024x21
  shapeCasts_S1024x21_S1x1024x21 : S1024x21.ShapeCasts S1x1024x21
  reducesTo_S4x1024x21_S4x1024_d2 : S4x1024x21.ReducesTo [2] S4x1024
  bcast_S4x1024_S4x1024x1_0_1 : S4x1024.BroadcastsInDim S4x1024x1 (![0, 1] : Fin 2 → Fin S4x1024x1.rank)
  bcast_S4x1024x1_S4x1024x21_0_1_2 : S4x1024x1.BroadcastsInDim S4x1024x21 (![0, 1, 2] : Fin 3 → Fin S4x1024x21.rank)
  shapeCasts_S4x32x32_S4x1024x1 : S4x32x32.ShapeCasts S4x1024x1
  reducesTo_S4x1024x1_S_d0_1_2 : S4x1024x1.ReducesTo [0, 1, 2] S_
  reducesTo_S4x1024x21_S_d0_1_2 : S4x1024x21.ReducesTo [0, 1, 2] S_
  dot_S1024x1024_S1024x21_S1024x21_1_0_0_1_n_n_wf : DotDims.WF S1024x1024 S1024x21 S1024x21 [1] [0] [0] [1] [] []
  hrank0 : 0 < grid0.rank
  k0_mult1_dvd : 128 ∣ k0_mult1.toNat
  k0_off1_inb : ∀ (r : Fin 8), ∀ a, (k0_off1 (BitVec.ofNat 32 r.val)) a + S128x1024.size a ≤ S1024x1024.size a
  k0_off2_inb : ∀ (r : Fin 8), ∀ a, (k0_off2 (BitVec.ofNat 32 r.val)) a + S1x1x1x128x1024.size a ≤ S1x1x1x1024x1024.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1x1025x1025.size a ≤ S2x4x8x1025x1025.size a
  hwx0_0 : ∀ i : grid0.Coords, EltTy.bits .f32 = 32 ∨ (Rect.block (s := S2x4x8x1025x1025) S1x1x1x1025x1025.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1024x1024.size a ≤ S2x4x8x1024x1024.size a
  hwx0_1 : ∀ i : grid0.Coords, EltTy.bits .f32 = 32 ∨ (Rect.block (s := S2x4x8x1024x1024) S1x1x1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x21.size a ≤ S4x1024x21.size a
  hwx0_2 : ∀ i : grid0.Coords, EltTy.bits .f32 = 32 ∨ (Rect.block (s := S4x1024x21) S1x1024x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x21.size a ≤ S4x1024x21.size a
  hwx0_3 : ∀ i : grid0.Coords, EltTy.bits .f32 = 32 ∨ (Rect.block (s := S4x1024x21) S1x1024x21.size (cc0_transform_3 i) (hinb0_3 i)).WholeWords (EltTy.packing .f32)

variable [Facts₀]

def dot_S1024x1024_S1024x21_S1024x21_1_0_0_1_n_n : DotDims S1024x1024 S1024x21 S1024x21 where
  lhsContracting := [1]
  rhsContracting := [0]
  lhsNonContracting := [0]
  rhsNonContracting := [1]
  lhsBatch := []
  rhsBatch := []
  wf := dot_S1024x1024_S1024x21_S1024x21_1_0_0_1_n_n_wf

abbrev win0_0 : Pipeline.Window sig grid0 :=
  Pipeline.Window.ofSpec (Memref.whole main_arg5) S1x1x1x1025x1025.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1x1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024x21.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024x21.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x21x32x32 : Shape := ⟨4, ![4, 21, 32, 32]⟩
abbrev S1 : Shape := ⟨1, ![1]⟩
abbrev S4x32x32 : Shape := ⟨3, ![4, 32, 32]⟩
abbrev S2x4x8x1025x1025 : Shape := ⟨5, ![2, 4, 8, 1025, 1025]⟩
abbrev S2x4x8x1024x1024 : Shape := ⟨5, ![2, 4, 8, 1024, 1024]⟩
abbrev S_ : Shape := ⟨0, ![]⟩
abbrev S2x4x8x1024 : Shape := ⟨4, ![2, 4, 8, 1024]⟩
abbrev S2x4x8x1024x1 : Shape := ⟨5, ![2, 4, 8, 1024, 1]⟩
abbrev S4x1024x1024 : Shape := ⟨3, ![4, 1024, 1024]⟩
abbrev S4x1x32x32 : Shape := ⟨4, ![4, 1, 32, 32]⟩
abbrev S4x21x1024 : Shape := ⟨3, ![4, 21, 1024]⟩
abbrev S4x1024x21 : Shape := ⟨3, ![4, 1024, 21]⟩
abbrev S4x1024 : Shape := ⟨2, ![4, 1024]⟩
abbrev S4x1024x1 : Shape := ⟨3, ![4, 1024, 1]⟩

abbrev nBuf : Space → Nat
  | .hbm => 76
  | .vmem => 0
  | .smem => 0
  | _ => 0

abbrev bufTy : (tb : Table) → Fin (tcTables nBuf tb) → BufTy
  | .hbm, ⟨0, _⟩ => ⟨S4x21x32x32, .f32⟩
  | .hbm, ⟨1, _⟩ => ⟨S1, .f32⟩
  | .hbm, ⟨2, _⟩ => ⟨S1, .f32⟩
  | .hbm, ⟨3, _⟩ => ⟨S4x32x32, .i32⟩
  | .hbm, ⟨4, _⟩ => ⟨S4x32x32, .i32⟩
  | .hbm, ⟨5, _⟩ => ⟨S2x4x8x1025x1025, .f32⟩
  | .hbm, ⟨6, _⟩ => ⟨S2x4x8x1024x1024, .f32⟩
  | .hbm, ⟨7, _⟩ => ⟨S2x4x8x1024x1024, .f32⟩
  | .hbm, ⟨8, _⟩ => ⟨S_, .f32⟩
  | .hbm, ⟨9, _⟩ => ⟨S2x4x8x1024, .f32⟩
  | .hbm, ⟨10, _⟩ => ⟨S2x4x8x1024x1, .f32⟩
  | .hbm, ⟨11, _⟩ => ⟨S2x4x8x1024x1024, .f32⟩
  | .hbm, ⟨12, _⟩ => ⟨S2x4x8x1024x1024, .f32⟩
  | .hbm, ⟨13, _⟩ => ⟨S_, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S_, .f32⟩
  | .hbm, ⟨19, _⟩ => ⟨S2x4x8x1024, .f32⟩
  | .hbm, ⟨20, _⟩ => ⟨S2x4x8x1024x1, .f32⟩
  | .hbm, ⟨21, _⟩ => ⟨S2x4x8x1024x1024, .f32⟩
  | .hbm, ⟨22, _⟩ => ⟨S2x4x8x1024x1024, .f32⟩
  | .hbm, ⟨23, _⟩ => ⟨S_, .f32⟩
  | .hbm, ⟨24, _⟩ => ⟨S4x1024x1024, .f32⟩
  | .hbm, ⟨25, _⟩ => ⟨S_, .f32⟩
  | .hbm, ⟨26, _⟩ => ⟨S4x1024x1024, .f32⟩
  | .hbm, ⟨27, _⟩ => ⟨S4x1024x1024, .f32⟩
  | .hbm, ⟨28, _⟩ => ⟨S_, .f32⟩
  | .hbm, ⟨29, _⟩ => ⟨S4x1024x1024, .f32⟩
  | .hbm, ⟨30, _⟩ => ⟨S4x1024x1024, .f32⟩
  | .hbm, ⟨31, _⟩ => ⟨S_, .f32⟩
  | .hbm, ⟨32, _⟩ => ⟨S4x1024x1024, .f32⟩
  | .hbm, ⟨33, _⟩ => ⟨S4x1024x1024, .f32⟩
  | .hbm, ⟨34, _⟩ => ⟨S4x1024x1024, .f32⟩
  | .hbm, ⟨35, _⟩ => ⟨S_, .f32⟩
  | .hbm, ⟨36, _⟩ => ⟨S4x1024x1024, .f32⟩
  | .hbm, ⟨37, _⟩ => ⟨S4x1024x1024, .f32⟩
  | .hbm, ⟨38, _⟩ => ⟨S_, .f32⟩
  | .hbm, ⟨39, _⟩ => ⟨S4x32x32, .f32⟩
  | .hbm, ⟨40, _⟩ => ⟨S_, .f32⟩
  | .hbm, ⟨41, _⟩ => ⟨S4x32x32, .f32⟩
  | .hbm, ⟨42, _⟩ => ⟨S4x32x32, .f32⟩
  | .hbm, ⟨43, _⟩ => ⟨S4x1x32x32, .f32⟩
  | .hbm, ⟨44, _⟩ => ⟨S4x21x32x32, .f32⟩
  | .hbm, ⟨45, _⟩ => ⟨S4x21x32x32, .f32⟩
  | .hbm, ⟨46, _⟩ => ⟨S4x21x32x32, .f32⟩
  | .hbm, ⟨47, _⟩ => ⟨S_, .f32⟩
  | .hbm, ⟨48, _⟩ => ⟨S4x32x32, .f32⟩
  | .hbm, ⟨49, _⟩ => ⟨S4x1x32x32, .f32⟩
  | .hbm, ⟨50, _⟩ => ⟨S4x21x32x32, .f32⟩
  | .hbm, ⟨51, _⟩ => ⟨S4x21x32x32, .f32⟩
  | .hbm, ⟨52, _⟩ => ⟨S4x21x1024, .f32⟩
  | .hbm, ⟨53, _⟩ => ⟨S4x1024x21, .f32⟩
  | .hbm, ⟨54, _⟩ => ⟨S4x1024x21, .f32⟩
  | .hbm, ⟨55, _⟩ => ⟨S_, .f32⟩
  | .hbm, ⟨56, _⟩ => ⟨S4x1024, .f32⟩
  | .hbm, ⟨57, _⟩ => ⟨S4x1024x1, .f32⟩
  | .hbm, ⟨58, _⟩ => ⟨S4x1024x21, .f32⟩
  | .hbm, ⟨59, _⟩ => ⟨S4x1024x21, .f32⟩
  | .hbm, ⟨60, _⟩ => ⟨S4x32x32, .f32⟩
  | .hbm, ⟨61, _⟩ => ⟨S4x1024x1, .f32⟩
  | .hbm, ⟨62, _⟩ => ⟨S_, .f32⟩
  | .hbm, ⟨63, _⟩ => ⟨S_, .f32⟩
  | .hbm, ⟨64, _⟩ => ⟨S4x1024x21, .f32⟩
  | .hbm, ⟨65, _⟩ => ⟨S4x1024x21, .f32⟩
  | .hbm, ⟨66, _⟩ => ⟨S4x1024x21, .f32⟩
  | .hbm, ⟨67, _⟩ => ⟨S4x1024x21, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .i1⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S4x21x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_cst_9 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_10 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_15 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  slices_S2x4x8x1025x1025_S2x4x8x1024x1024_0_0_0_1_1 : S2x4x8x1025x1025.Slices ![0, 0, 0, 1, 1] S2x4x8x1024x1024
  reducesTo_S2x4x8x1024x1024_S2x4x8x1024_d4 : S2x4x8x1024x1024.ReducesTo [4] S2x4x8x1024
  h_S_ : 0 < S_.numel
  bcast_S2x4x8x1024_S2x4x8x1024x1_0_1_2_3 : S2x4x8x1024.BroadcastsInDim S2x4x8x1024x1 (![0, 1, 2, 3] : Fin 4 → Fin S2x4x8x1024x1.rank)
  bcast_S2x4x8x1024x1_S2x4x8x1024x1024_0_1_2_3_4 : S2x4x8x1024x1.BroadcastsInDim S2x4x8x1024x1024 (![0, 1, 2, 3, 4] : Fin 5 → Fin S2x4x8x1024x1024.rank)
  reducesTo_S2x4x8x1024x1024_S4x1024x1024_d0_2 : S2x4x8x1024x1024.ReducesTo [0, 2] S4x1024x1024
  bcast_S_S4x1024x1024 : S_.BroadcastsInDim S4x1024x1024 (![] : Fin 0 → Fin S4x1024x1024.rank)
  reducesTo_S4x21x32x32_S4x32x32_d1 : S4x21x32x32.ReducesTo [1] S4x32x32
  bcast_S_S4x32x32 : S_.BroadcastsInDim S4x32x32 (![] : Fin 0 → Fin S4x32x32.rank)
  bcast_S4x32x32_S4x1x32x32_0_2_3 : S4x32x32.BroadcastsInDim S4x1x32x32 (![0, 2, 3] : Fin 3 → Fin S4x1x32x32.rank)
  bcast_S4x1x32x32_S4x21x32x32_0_1_2_3 : S4x1x32x32.BroadcastsInDim S4x21x32x32 (![0, 1, 2, 3] : Fin 4 → Fin S4x21x32x32.rank)
  shapeCasts_S4x21x32x32_S4x21x1024 : S4x21x32x32.ShapeCasts S4x21x1024
  transposes_S4x21x1024_S4x1024x21_0_2_1 : S4x21x1024.Transposes [0, 2, 1] S4x1024x21
  reducesTo_S4x1024x21_S4x1024_d2 : S4x1024x21.ReducesTo [2] S4x1024
  bcast_S4x1024_S4x1024x1_0_1 : S4x1024.BroadcastsInDim S4x1024x1 (![0, 1] : Fin 2 → Fin S4x1024x1.rank)
  bcast_S4x1024x1_S4x1024x21_0_1_2 : S4x1024x1.BroadcastsInDim S4x1024x21 (![0, 1, 2] : Fin 3 → Fin S4x1024x21.rank)
  shapeCasts_S4x32x32_S4x1024x1 : S4x32x32.ShapeCasts S4x1024x1
  reducesTo_S4x1024x1_S_d0_1_2 : S4x1024x1.ReducesTo [0, 1, 2] S_
  reducesTo_S4x1024x21_S_d0_1_2 : S4x1024x21.ReducesTo [0, 1, 2] S_
  dot_S4x1024x1024_S4x1024x21_S4x1024x21_2_1_1_2_0_0_wf : DotDims.WF S4x1024x1024 S4x1024x21 S4x1024x21 [2] [1] [1] [2] [0] [0]

variable [Facts₀]

def dot_S4x1024x1024_S4x1024x21_S4x1024x21_2_1_1_2_0_0 : DotDims S4x1024x1024 S4x1024x21 S4x1024x21 where
  lhsContracting := [2]
  rhsContracting := [1]
  lhsNonContracting := [1]
  rhsNonContracting := [2]
  lhsBatch := [0]
  rhsBatch := [0]
  wf := dot_S4x1024x1024_S4x1024x21_S4x1024x21_2_1_1_2_0_0_wf

class Facts : Prop extends Facts₀ where

variable [Facts]
-- ==== Proof.RefSum.lean ====
/-
  A sum over two axes at once, read at an index.

  The host's sum of a [2, 4, 8, 1024, 1024] array over its axes 0 and 2 (the layers and the heads) into a
  [4, 1024, 1024] array is, at the extended reals, the initial value plus the sum of the operand over the indices
  that drop to the result index. Those indices are exactly the sixteen (l, b, h, i, j) with (b, i, j) fixed, so the
  sum is the double sum over the layer l and the head h.
-/
import proofs.«106885_j6708738916949_1_alg».proof.Proof.Gen.ReferenceIdeal
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx

/-- Every index of the five-axis array is its five coordinates. -/
theorem exists_ix5 (x : S2x4x8x1024x1024.Idx) :
    ∃ (l : Fin 2) (b : Fin 4) (h : Fin 8) (i j : Fin 1024), x = ix5 l b h i j :=
  ⟨x 0, x 1, x 2, x 3, x 4, eq_ix5 x⟩

/-- Dropping the layer and the head of (l, b, h, i, j) leaves (b, i, j). -/
theorem drop_ix5 (l : Fin 2) (b : Fin 4) (h : Fin 8) (i j : Fin 1024) :
    reducesTo_S2x4x8x1024x1024_S4x1024x1024_d0_2.drop (ix5 l b h i j) = ix3 b i j := by
  funext a
  match a with
  | ⟨0, _⟩ => rfl
  | ⟨1, _⟩ => rfl
  | ⟨2, _⟩ => rfl

/-- The sixteen indices over (b, i, j), one per layer and head. -/
def lhEmb (b : Fin 4) (i j : Fin 1024) : Fin 2 × Fin 8 ↪ S2x4x8x1024x1024.Idx :=
  ⟨fun p => ix5 p.1 b p.2 i j, fun p q h => Prod.ext (congrFun h 0) (congrFun h 2)⟩

/-- The indices that drop to (b, i, j) are those sixteen. -/
theorem filter_drop (b : Fin 4) (i j : Fin 1024) :
    Finset.univ.filter (fun x : S2x4x8x1024x1024.Idx => reducesTo_S2x4x8x1024x1024_S4x1024x1024_d0_2.drop x = ix3 b i j)
      = Finset.univ.map (lhEmb b i j) := by
  ext x
  simp only [Finset.mem_filter, Finset.mem_univ, true_and, Finset.mem_map, lhEmb, Function.Embedding.coeFn_mk]
  constructor
  · intro hx
    obtain ⟨l, b', h, i', j', rfl⟩ := exists_ix5 x
    rw [drop_ix5] at hx
    have hb : b' = b := congrFun hx 0
    have hi : i' = i := congrFun hx 1
    have hj : j' = j := congrFun hx 2
    subst hb hi hj
    exact ⟨(l, h), rfl⟩
  · rintro ⟨p, rfl⟩
    exact drop_ix5 p.1 b p.2 i j

/-- The host's sum over the layers and the heads, at (b, i, j): the initial value plus the double sum. -/
theorem hostReduceAdd_layers_heads (y : S2x4x8x1024x1024.Idx → EReal) (init : EReal) (b : Fin 4) (i j : Fin 1024) :
    Ideal.hostReduceAdd reducesTo_S2x4x8x1024x1024_S4x1024x1024_d0_2 y init (ix3 b i j)
      = init + ∑ l : Fin 2, ∑ h : Fin 8, y (ix5 l b h i j) := by
  unfold Ideal.hostReduceAdd
  rw [filter_drop, Finset.sum_map, Fintype.sum_prod_type]
  rfl

end Cert.RefSide

end
-- ==== Proof.AvgLaw.lean ====
/-
  The arithmetic that joins the two programs, over the extended reals, with no program in sight.

  Per batch entry, row and column, write e(l,h) and d(l,h) for the row-normalised encoder and decoder attention
  entries of layer l and head h (2 layers, 8 heads). One program averages them as
      ((∑ e) / 16 · 2 + (∑ d) / 16 · 2) / 4,
  the other adds e + d head by head onto a zeroed accumulator and scales the total by 2⁻⁵:
      (((0 + (e₀ + d₀)) + (e₁ + d₁)) + …) · 2⁻⁵.
  Every constant is an exact power of two, so both are (∑ e + ∑ d) / 32. The entries themselves may be infinite
  (a row whose sum is zero is divided by zero), so the only laws used are those that hold on all of [-∞, +∞]:
  addition is commutative and associative, multiplication is associative, and a NON-NEGATIVE REAL factor
  distributes over a sum (a general factor does not: ⊤ + ⊥ = ⊥).
-/
import Idealize.ShloMosaic.PureOps.Ideal
import Idealize.ShloMosaic.PureOps.Ideal.Laws

noncomputable section

namespace Cert.AvgLaw

open Idealize.ShloMosaic

/-! ## The constants the programs spell, as the reals their words denote -/

/-- `16.0`: the number of (layer, head) pairs the reference's mean divides by. -/
theorem ofBits_16 : Ideal.ofBits .f32 0x41800000#32 = ((16 : ℝ) : EReal) := by
  simp [Ideal.ofBits, Ideal.ieee, -EReal.coe_mul]; norm_num

/-- `2.0`: the reference's layer counts. -/
theorem ofBits_2 : Ideal.ofBits .f32 0x40000000#32 = ((2 : ℝ) : EReal) := by
  simp [Ideal.ofBits, Ideal.ieee, -EReal.coe_mul]; norm_num

/-- `4.0`: the reference's total layer count. -/
theorem ofBits_4 : Ideal.ofBits .f32 0x40800000#32 = ((4 : ℝ) : EReal) := by
  simp [Ideal.ofBits, Ideal.ieee, -EReal.coe_mul]; norm_num

/-- `0.03125 = 2⁻⁵`: the kernel's one scale, exactly 1/32. -/
theorem ofBits_inv32 : Ideal.ofBits .f32 0x3D000000#32 = ((1 / 32 : ℝ) : EReal) := by
  simp [Ideal.ofBits, Ideal.ieee, -EReal.coe_mul]; norm_num

/-! ## The law -/

/-- A non-negative real factor distributes over a sum of extended reals, infinite summands included. -/
theorem add_mul_coe {r : ℝ} (hr : 0 ≤ r) (x y : EReal) : (x + y) * (r : EReal) = x * (r : EReal) + y * (r : EReal) :=
  EReal.right_distrib_of_nonneg_of_ne_top (by exact_mod_cast hr) (EReal.coe_ne_top r) x y

/-- The reference's average of the two totals is the kernel's scaled total: both are `(se + sd) / 32`. -/
theorem avg_law (se sd : EReal) :
    Ideal.div (Ideal.div se ((16 : ℝ) : EReal) * ((2 : ℝ) : EReal) + Ideal.div sd ((16 : ℝ) : EReal) * ((2 : ℝ) : EReal))
        ((4 : ℝ) : EReal)
      = (se + sd) * ((1 / 32 : ℝ) : EReal) := by
  rw [Ideal.div_coe (by norm_num : (16 : ℝ) ≠ 0), Ideal.div_coe (by norm_num : (16 : ℝ) ≠ 0),
    Ideal.div_coe (by norm_num : (4 : ℝ) ≠ 0)]
  rw [mul_assoc se, mul_assoc sd, ← EReal.coe_mul, add_mul_coe (by norm_num), mul_assoc se, mul_assoc sd, ← EReal.coe_mul,
    add_mul_coe (by norm_num)]
  norm_num

/-! ## The accumulation across the points of one batch entry -/

/-- What the accumulator holds after point `n`: the first point adds its term to zero, each later one to what the
    point before left. -/
def chain (f : ℕ → EReal) : ℕ → EReal
  | 0 => 0 + f 0
  | n + 1 => chain f n + f (n + 1)

/-- It is the sum of the terms so far. -/
theorem chain_eq_sum (f : ℕ → EReal) (n : ℕ) : chain f n = ∑ k ∈ Finset.range (n + 1), f k := by
  induction n with
  | zero => simp [chain]
  | succ n ih => rw [Finset.sum_range_succ _ (n + 1), ← ih]; rfl

end Cert.AvgLaw

end
-- ==== Proof.Spec.lean ====
/-
  What both programs compute before their common last stage, entry by entry, over the extended reals.

  `x5` is the encoder attention, [2 layers, 4 batch entries, 8 heads, 1025, 1025]; its first row and first column (the
  class token's) are dropped. `x6` is the decoder attention, [2, 4, 8, 1024, 1024]. Each row of each (layer, head) map
  is divided by its own sum (`E`, `D`); the averaged attention of batch entry `b` at (i, j) combines the sixteen
  (layer, head) pairs — the reference as ((∑ E)/16 · 2 + (∑ D)/16 · 2)/4 (`attnRef`), the kernel as the sum over the
  sixteen grid points s = 8·l + h of (E + D), times 2⁻⁵ (`attnKer`); `attn_eq` says they are one number. The
  affinity of token i for class cc is then the product with the class probabilities `P`: ∑ⱼ attn(b, i, j) · P(b, j, cc).
-/
import proofs.«106885_j6708738916949_1_alg».proof.Proof.AvgLaw
import Idealize.ShloMosaic.Lib.ValueIdx

noncomputable section

namespace Cert.Spec

open Idealize.ShloMosaic Idealize.ShloMosaic.ValueIdx

/-- Row i+1, column j+1 of an encoder map (the class token's row and column dropped). -/
abbrev up (i : Fin 1024) : Fin 1025 := ⟨i.val + 1, by have := i.isLt; omega⟩

/-- The encoder entry (l, b, h, i, j) divided by its row's sum. -/
def E (x5 : (⟨5, ![2, 4, 8, 1025, 1025]⟩ : Shape).Idx → EReal) (l : Fin 2) (b : Fin 4) (h : Fin 8) (i j : Fin 1024) : EReal :=
  Ideal.div (x5 (ix5 l b h (up i) (up j))) (∑ k : Fin 1024, x5 (ix5 l b h (up i) (up k)))

/-- The decoder entry (l, b, h, i, j) divided by its row's sum. -/
def D (x6 : (⟨5, ![2, 4, 8, 1024, 1024]⟩ : Shape).Idx → EReal) (l : Fin 2) (b : Fin 4) (h : Fin 8) (i j : Fin 1024) : EReal :=
  Ideal.div (x6 (ix5 l b h i j)) (∑ k : Fin 1024, x6 (ix5 l b h i k))

/-- The reference's averaged attention: the two means over (layer, head), each times its layer count, over the total. -/
def attnRef (x5 : (⟨5, ![2, 4, 8, 1025, 1025]⟩ : Shape).Idx → EReal) (x6 : (⟨5, ![2, 4, 8, 1024, 1024]⟩ : Shape).Idx → EReal)
    (b : Fin 4) (i j : Fin 1024) : EReal :=
  Ideal.div (Ideal.div (∑ l : Fin 2, ∑ h : Fin 8, E x5 l b h i j) ((16 : ℝ) : EReal) * ((2 : ℝ) : EReal)
      + Ideal.div (∑ l : Fin 2, ∑ h : Fin 8, D x6 l b h i j) ((16 : ℝ) : EReal) * ((2 : ℝ) : EReal)) ((4 : ℝ) : EReal)

/-- Grid point s of a batch entry's sixteen handles layer s / 8 and head s % 8. -/
abbrev layerOf (s : ℕ) : Fin 2 := ⟨s / 8 % 2, Nat.mod_lt _ (by norm_num)⟩
abbrev headOf (s : ℕ) : Fin 8 := ⟨s % 8, Nat.mod_lt _ (by norm_num)⟩

/-- The kernel's averaged attention: the sixteen points' (E + D) summed, times 2⁻⁵. -/
def attnKer (x5 : (⟨5, ![2, 4, 8, 1025, 1025]⟩ : Shape).Idx → EReal) (x6 : (⟨5, ![2, 4, 8, 1024, 1024]⟩ : Shape).Idx → EReal)
    (b : Fin 4) (i j : Fin 1024) : EReal :=
  (∑ s ∈ Finset.range 16, (E x5 (layerOf s) b (headOf s) i j + D x6 (layerOf s) b (headOf s) i j)) * ((1 / 32 : ℝ) : EReal)

/-- Sixteen points in order are the two layers' eight heads. -/
theorem sum_points (g : Fin 2 → Fin 8 → EReal) :
    ∑ s ∈ Finset.range 16, g (layerOf s) (headOf s) = ∑ l : Fin 2, ∑ h : Fin 8, g l h := by
  simp only [Finset.sum_range_succ, Finset.sum_range_zero, Fin.sum_univ_succ, Fin.sum_univ_zero, zero_add, add_zero]
  simp only [add_assoc]
  rfl

/-- The two averages are one number. -/
theorem attn_eq (x5 : (⟨5, ![2, 4, 8, 1025, 1025]⟩ : Shape).Idx → EReal) (x6 : (⟨5, ![2, 4, 8, 1024, 1024]⟩ : Shape).Idx → EReal)
    (b : Fin 4) (i j : Fin 1024) : attnRef x5 x6 b i j = attnKer x5 x6 b i j := by
  unfold attnRef attnKer
  rw [Cert.AvgLaw.avg_law, Finset.sum_add_distrib, sum_points (fun l h => E x5 l b h i j), sum_points (fun l h => D x6 l b h i j)]

/-- The affinity of token i of batch entry b for class cc, from an averaged attention and the class probabilities. -/
def affinity (attn : Fin 4 → Fin 1024 → Fin 1024 → EReal) (P : (⟨3, ![4, 1024, 21]⟩ : Shape).Idx → EReal) :
    (⟨3, ![4, 1024, 21]⟩ : Shape).Idx → EReal :=
  fun y => ∑ j : Fin 1024, attn (y 0) (y 1) j * P (ix3 (y 0) j (y 2))

end Cert.Spec

end
-- ==== Proof.RefAttn.lean ====
/-
  The reference's averaged attention, read at an entry.

  The reference divides every row of every (layer, head) map by the row's own sum — the encoder maps after their
  first row and first column are sliced away —, sums the sixteen (layer, head) maps of a batch entry, divides by 16,
  multiplies by the layer count 2, adds the encoder's and the decoder's results and divides by 4. Read at the entry
  (b, i, j), operation by operation, that is the specification's `attnRef`.
-/
import proofs.«106885_j6708738916949_1_alg».proof.Proof.RefReadP
import proofs.«106885_j6708738916949_1_alg».proof.Proof.RefSum
import proofs.«106885_j6708738916949_1_alg».proof.Proof.Spec

noncomputable section

namespace Cert.RefSide

open Cert.ReferenceIdeal Cert.ReferenceIdeal.Gen Cert.ReferenceIdeal.ReadP Idealize.ShloMosaic Idealize.ShloMosaic.ValueIdx

/-! ## The index functions of the layout operations, on coordinates -/

/-- The slice reads row i+1, column j+1. -/
theorem idx_slice (l : Fin 2) (b : Fin 4) (h : Fin 8) (i j : Fin 1024) :
    idx_main_v0 (ix5 l b h i j) = ix5 l b h (Cert.Spec.up i) (Cert.Spec.up j) :=
  funext fun a => Fin.ext (by
    match a with
    | ⟨0, _⟩ => rfl
    | ⟨1, _⟩ => rfl
    | ⟨2, _⟩ => rfl
    | ⟨3, _⟩ => exact Nat.add_comm 1 i.val
    | ⟨4, _⟩ => exact Nat.add_comm 1 j.val)

/-- The encoder's row sum, broadcast back along the row, is read at the row's entries. -/
theorem idx_rowE (l : Fin 2) (b : Fin 4) (h : Fin 8) (i j k : Fin 1024) :
    idx_main_v1 (idx_main_v2 (idx_main_v3 (ix5 l b h i j))) k = ix5 l b h i k :=
  funext fun a => Fin.ext (by
    match a with
    | ⟨0, _⟩ => rfl
    | ⟨1, _⟩ => rfl
    | ⟨2, _⟩ => rfl
    | ⟨3, _⟩ => rfl
    | ⟨4, _⟩ => rfl)

/-- The decoder's row sum likewise. -/
theorem idx_rowD (l : Fin 2) (b : Fin 4) (h : Fin 8) (i j k : Fin 1024) :
    idx_main_v8 (idx_main_v9 (idx_main_v10 (ix5 l b h i j))) k = ix5 l b h i k :=
  funext fun a => Fin.ext (by
    match a with
    | ⟨0, _⟩ => rfl
    | ⟨1, _⟩ => rfl
    | ⟨2, _⟩ => rfl
    | ⟨3, _⟩ => rfl
    | ⟨4, _⟩ => rfl)

/-! ## The row-normalised maps -/

/-- The encoder entry divided by its row's sum. -/
theorem v4_ix5 (x5 : (⟨S2x4x8x1025x1025, .f32⟩ : BufTy).Contents (Elt Ideal)) (l : Fin 2) (b : Fin 4) (h : Fin 8) (i j : Fin 1024) :
    val_main_v4 (F := Ideal) x5 (ix5 l b h i j) = Cert.Spec.E x5 l b h i j := by
  rw [val_main_v4_apply, val_main_v3_apply, val_main_v2_apply, val_main_v1_apply, val_main_cst_apply]
  simp only [val_main_v0_apply, idx_rowE, idx_slice]
  show Ideal.div _ (Ideal.ofBits .f32 0x00000000#32 + _) = _
  rw [Ideal.ofBits_zero_f32, zero_add]
  rfl

/-- The decoder entry divided by its row's sum. -/
theorem v11_ix5 (x6 : (⟨S2x4x8x1024x1024, .f32⟩ : BufTy).Contents (Elt Ideal)) (l : Fin 2) (b : Fin 4) (h : Fin 8) (i j : Fin 1024) :
    val_main_v11 (F := Ideal) x6 (ix5 l b h i j) = Cert.Spec.D x6 l b h i j := by
  rw [val_main_v11_apply, val_main_v10_apply, val_main_v9_apply, val_main_v8_apply, val_main_cst_2_apply]
  simp only [idx_rowD]
  show Ideal.div _ (Ideal.ofBits .f32 0x00000000#32 + _) = _
  rw [Ideal.ofBits_zero_f32, zero_add]
  rfl

/-! ## The sums over the layers and the heads -/

theorem v5_ix3 (x5 : (⟨S2x4x8x1025x1025, .f32⟩ : BufTy).Contents (Elt Ideal)) (b : Fin 4) (i j : Fin 1024) :
    val_main_v5 (F := Ideal) x5 (ix3 b i j) = ∑ l : Fin 2, ∑ h : Fin 8, Cert.Spec.E x5 l b h i j := by
  unfold val_main_v5
  simp only [Host.reduceAdd, Ideal.hostReduceAdd_def]
  refine (hostReduceAdd_layers_heads _ _ b i j).trans ?_
  rw [val_main_cst_0_apply]
  show Ideal.ofBits .f32 0x00000000#32 + _ = _
  rw [Ideal.ofBits_zero_f32, zero_add]
  exact Finset.sum_congr rfl fun l _ => Finset.sum_congr rfl fun h _ => v4_ix5 x5 l b h i j

theorem v12_ix3 (x6 : (⟨S2x4x8x1024x1024, .f32⟩ : BufTy).Contents (Elt Ideal)) (b : Fin 4) (i j : Fin 1024) :
    val_main_v12 (F := Ideal) x6 (ix3 b i j) = ∑ l : Fin 2, ∑ h : Fin 8, Cert.Spec.D x6 l b h i j := by
  unfold val_main_v12
  simp only [Host.reduceAdd, Ideal.hostReduceAdd_def]
  refine (hostReduceAdd_layers_heads _ _ b i j).trans ?_
  rw [val_main_cst_3_apply]
  show Ideal.ofBits .f32 0x00000000#32 + _ = _
  rw [Ideal.ofBits_zero_f32, zero_add]
  exact Finset.sum_congr rfl fun l _ => Finset.sum_congr rfl fun h _ => v11_ix5 x6 l b h i j

/-! ## The averaged attention -/

/-- The reference's averaged attention at (b, i, j) is the specification's. -/
theorem v21_ix3 (x5 : (⟨S2x4x8x1025x1025, .f32⟩ : BufTy).Contents (Elt Ideal)) (x6 : (⟨S2x4x8x1024x1024, .f32⟩ : BufTy).Contents (Elt Ideal))
    (b : Fin 4) (i j : Fin 1024) :
    val_main_v21 (F := Ideal) x5 x6 (ix3 b i j) = Cert.Spec.attnRef x5 x6 b i j := by
  rw [val_main_v21_apply, val_main_v19_apply, val_main_v16_apply, val_main_v18_apply, val_main_v7_apply, val_main_v14_apply,
    val_main_v6_apply, val_main_v13_apply, val_main_v15_apply, val_main_v17_apply, val_main_v20_apply,
    val_main_cst_1_apply, val_main_cst_4_apply, val_main_cst_5_apply, val_main_cst_6_apply, val_main_cst_7_apply,
    v5_ix3, v12_ix3]
  show Ideal.div (Ideal.div _ (Ideal.ofBits .f32 0x41800000#32) * Ideal.ofBits .f32 0x40000000#32
      + Ideal.div _ (Ideal.ofBits .f32 0x41800000#32) * Ideal.ofBits .f32 0x40000000#32) (Ideal.ofBits .f32 0x40800000#32) = _
  rw [Cert.AvgLaw.ofBits_16, Cert.AvgLaw.ofBits_2, Cert.AvgLaw.ofBits_4]
  rfl

end Cert.RefSide

end
-- ==== Proof.RefValue.lean ====
/-
  The reference's run, with its result named through three functions of the arguments: the class probabilities
  `probR` (a softmax over the classes, reshaped and transposed), the affinity `affR` (the batched product of the
  averaged attention with the probabilities) and the last stage `tailR` (normalise the affinity over the classes,
  take |P − affinity|, weight by the mask, sum, and divide by the mask's total when that is positive). The first
  and the last are carried as they stand and never opened; the affinity is read at an index and shown to be the
  specification's, over the reference's arrangement of the average.
-/
import proofs.«106885_j6708738916949_1_alg».proof.Proof.RefReadP
import proofs.«106885_j6708738916949_1_alg».proof.Proof.RefAttn
import proofs.«106885_j6708738916949_1_alg».proof.Proof.Spec
import proofs.«106885_j6708738916949_1_alg».proof.Proof.AvgLaw
import Idealize.ShloMosaic.Lib.ValueIdx
import Idealize.ShloMosaic.Lib.Pipeline.Value
import Idealize.ShloMosaic.PureOps.Ideal.Laws
import Idealize.ShloMosaic.Lib.StableHlo.Run

noncomputable section

namespace Cert.RefSide

open Cert.ReferenceIdeal Cert.ReferenceIdeal.Gen Cert.ReferenceIdeal.ReadP Idealize.ShloMosaic Idealize.ShloMosaic.TcCoe Idealize.SL.Sem
  Idealize.ShloMosaic.StableHlo Idealize.ShloMosaic.ValueIdx

/-- The class probabilities: the reference's operations %22 … %34 (max over classes, subtract, exp, sum, divide, reshape,
    transpose) as one function of the logits. Never opened. -/
def probR (a0 : (⟨S4x21x32x32, .f32⟩ : BufTy).Contents (Elt Ideal)) : (⟨S4x1024x21, .f32⟩ : BufTy).Contents (Elt Ideal) :=
  Cert.ReferenceIdeal.ReadP.val_main_v34 (F := Ideal) a0

/-- The last stage: the reference's operations %36 … %51 (and the constants and %40 … %42, %45 they use) as ONE term in the
    integer mask a3 (%arg3), the probabilities P (standing for %34) and the affinity aff (standing for %35). Never opened. -/
def tailR (a3 : (⟨S4x32x32, .i32⟩ : BufTy).Contents (Elt Ideal)) (P aff : (⟨S4x1024x21, .f32⟩ : BufTy).Contents (Elt Ideal)) :
    (⟨S_, .f32⟩ : BufTy).Contents (Elt Ideal) :=
  mulf (F := Ideal) (constant (F := Ideal) S_ .f32 0x3F800000#32) (select (cmpf (F := Ideal) .ogt (Host.reduceAdd (F := Ideal) (shapeCast _ (sitofp (F := Ideal) .f32 a3 : (⟨S4x32x32, .f32⟩ : BufTy).Contents (Elt Ideal)) shapeCasts_S4x32x32_S4x1024x1 : (⟨S4x1024x1, .f32⟩ : BufTy).Contents (Elt Ideal)) (constant (F := Ideal) S_ .f32 0x00000000#32) reducesTo_S4x1024x1_S_d0_1_2 h_S_ : (⟨S_, .f32⟩ : BufTy).Contents (Elt Ideal)) (constant (F := Ideal) S_ .f32 0x00000000#32) : (⟨S_, .i1⟩ : BufTy).Contents (Elt Ideal)) (Host.divf (F := Ideal) (Host.reduceAdd (F := Ideal) (mulf (F := Ideal) (broadcastInDim S4x1024x21 ![0, 1, 2] bcast_S4x1024x1_S4x1024x21_0_1_2 (shapeCast _ (sitofp (F := Ideal) .f32 a3 : (⟨S4x32x32, .f32⟩ : BufTy).Contents (Elt Ideal)) shapeCasts_S4x32x32_S4x1024x1 : (⟨S4x1024x1, .f32⟩ : BufTy).Contents (Elt Ideal)) : (⟨S4x1024x21, .f32⟩ : BufTy).Contents (Elt Ideal)) (Host.absf (F := Ideal) (subf (F := Ideal) P (Host.divf (F := Ideal) aff (broadcastInDim S4x1024x21 ![0, 1, 2] bcast_S4x1024x1_S4x1024x21_0_1_2 (broadcastInDim S4x1024x1 ![0, 1] bcast_S4x1024_S4x1024x1_0_1 (Host.reduceAdd (F := Ideal) aff (constant (F := Ideal) S_ .f32 0x00000000#32) reducesTo_S4x1024x21_S4x1024_d2 h_S_ : (⟨S4x1024, .f32⟩ : BufTy).Contents (Elt Ideal)) : (⟨S4x1024x1, .f32⟩ : BufTy).Contents (Elt Ideal)) : (⟨S4x1024x21, .f32⟩ : BufTy).Contents (Elt Ideal)) : (⟨S4x1024x21, .f32⟩ : BufTy).Contents (Elt Ideal)) : (⟨S4x1024x21, .f32⟩ : BufTy).Contents (Elt Ideal)) : (⟨S4x1024x21, .f32⟩ : BufTy).Contents (Elt Ideal)) : (⟨S4x1024x21, .f32⟩ : BufTy).Contents (Elt Ideal)) (constant (F := Ideal) S_ .f32 0x00000000#32) reducesTo_S4x1024x21_S_d0_1_2 h_S_ : (⟨S_, .f32⟩ : BufTy).Contents (Elt Ideal)) (Host.reduceAdd (F := Ideal) (shapeCast _ (sitofp (F := Ideal) .f32 a3 : (⟨S4x32x32, .f32⟩ : BufTy).Contents (Elt Ideal)) shapeCasts_S4x32x32_S4x1024x1 : (⟨S4x1024x1, .f32⟩ : BufTy).Contents (Elt Ideal)) (constant (F := Ideal) S_ .f32 0x00000000#32) reducesTo_S4x1024x1_S_d0_1_2 h_S_ : (⟨S_, .f32⟩ : BufTy).Contents (Elt Ideal)) : (⟨S_, .f32⟩ : BufTy).Contents (Elt Ideal)) (Host.reduceAdd (F := Ideal) (mulf (F := Ideal) (broadcastInDim S4x1024x21 ![0, 1, 2] bcast_S4x1024x1_S4x1024x21_0_1_2 (shapeCast _ (sitofp (F := Ideal) .f32 a3 : (⟨S4x32x32, .f32⟩ : BufTy).Contents (Elt Ideal)) shapeCasts_S4x32x32_S4x1024x1 : (⟨S4x1024x1, .f32⟩ : BufTy).Contents (Elt Ideal)) : (⟨S4x1024x21, .f32⟩ : BufTy).Contents (Elt Ideal)) (Host.absf (F := Ideal) (subf (F := Ideal) P (Host.divf (F := Ideal) aff (broadcastInDim S4x1024x21 ![0, 1, 2] bcast_S4x1024x1_S4x1024x21_0_1_2 (broadcastInDim S4x1024x1 ![0, 1] bcast_S4x1024_S4x1024x1_0_1 (Host.reduceAdd (F := Ideal) aff (constant (F := Ideal) S_ .f32 0x00000000#32) reducesTo_S4x1024x21_S4x1024_d2 h_S_ : (⟨S4x1024, .f32⟩ : BufTy).Contents (Elt Ideal)) : (⟨S4x1024x1, .f32⟩ : BufTy).Contents (Elt Ideal)) : (⟨S4x1024x21, .f32⟩ : BufTy).Contents (Elt Ideal)) : (⟨S4x1024x21, .f32⟩ : BufTy).Contents (Elt Ideal)) : (⟨S4x1024x21, .f32⟩ : BufTy).Contents (Elt Ideal)) : (⟨S4x1024x21, .f32⟩ : BufTy).Contents (Elt Ideal)) : (⟨S4x1024x21, .f32⟩ : BufTy).Contents (Elt Ideal)) (constant (F := Ideal) S_ .f32 0x00000000#32) reducesTo_S4x1024x21_S_d0_1_2 h_S_ : (⟨S_, .f32⟩ : BufTy).Contents (Elt Ideal)) : (⟨S_, .f32⟩ : BufTy).Contents (Elt Ideal))

/-- The affinity as the reference computes it: the host's batched product of the averaged attention (%21) with the
    probabilities. -/
def affR (x5 : (⟨S2x4x8x1025x1025, .f32⟩ : BufTy).Contents (Elt Ideal)) (x6 : (⟨S2x4x8x1024x1024, .f32⟩ : BufTy).Contents (Elt Ideal))
    (P : (⟨S4x1024x21, .f32⟩ : BufTy).Contents (Elt Ideal)) : (⟨S4x1024x21, .f32⟩ : BufTy).Contents (Elt Ideal) :=
  Host.dotGeneral (F := Ideal) (φ₁ := .f32) (φ₂ := .f32) dot_S4x1024x1024_S4x1024x21_S4x1024x21_2_1_1_2_0_0 none (Cert.ReferenceIdeal.ReadP.val_main_v21 (F := Ideal) x5 x6) P

/-- The reference's last operation, as a function of the arguments, is the last stage applied to the probabilities
    and the affinity: both sides are the same term once the names of the operations %35 … %51 are opened. -/
theorem v51_eq_tail (a0 : (⟨S4x21x32x32, .f32⟩ : BufTy).Contents (Elt Ideal)) (a3 : (⟨S4x32x32, .i32⟩ : BufTy).Contents (Elt Ideal))
    (x5 : (⟨S2x4x8x1025x1025, .f32⟩ : BufTy).Contents (Elt Ideal)) (x6 : (⟨S2x4x8x1024x1024, .f32⟩ : BufTy).Contents (Elt Ideal)) :
    val_main_v51 (F := Ideal) a0 a3 x5 x6 = tailR a3 (probR a0) (affR x5 x6 (probR a0)) := by
  unfold val_main_v51 val_main_v50 val_main_v49 val_main_v48 val_main_v47 val_main_v46 val_main_v45 val_main_v44 val_main_v43 val_main_v42 val_main_v41 val_main_v40 val_main_v39 val_main_v38 val_main_v37 val_main_v36 val_main_v35 val_main_cst_15 val_main_cst_14 val_main_cst_13 val_main_cst_12 val_main_cst_11 tailR affR probR
  rfl

/-- The reference's run, with its result named through the three functions. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51)
          = tailR (m ((c.tc : Thread nD τ).loc main_arg3)) (probR (m ((c.tc : Thread nD τ).loc main_arg0)))
              (affR (m ((c.tc : Thread nD τ).loc main_arg5)) (m ((c.tc : Thread nD τ).loc main_arg6)) (probR (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono
    (fun _ h c => ⟨(h c).1.trans ((val_main_v51_eq (F := Ideal) m c).trans (v51_eq_tail _ _ _ _)), (h c).2⟩)
    (Cert.ReferenceIdeal.ValueP.run (F := Ideal) m ρ)

/-- The host's batched product read at an index: the sum over the contracted coordinate k of the left operand at
    (b, i, k) times the right at (b, k, cc). -/
theorem dot_apply (A : (⟨S4x1024x1024, .f32⟩ : BufTy).Contents (Elt Ideal)) (P : (⟨S4x1024x21, .f32⟩ : BufTy).Contents (Elt Ideal))
    (y : S4x1024x21.Idx) :
    Host.dotGeneral (F := Ideal) (φ₁ := .f32) (φ₂ := .f32) dot_S4x1024x1024_S4x1024x21_S4x1024x21_2_1_1_2_0_0 none A P y = ∑ k : Fin 1024, A (lidx_main_v35 y k) * P (ridx_main_v35 y k) := by
  simp only [Host.dotGeneral]
  rw [Ideal.dotGeneral_apply, ← Equiv.sum_comp (ValueIdx.contrEquiv1 dot_S4x1024x1024_S4x1024x21_S4x1024x21_2_1_1_2_0_0 1024 rfl rfl).symm]
  refine Finset.sum_congr rfl fun k _ => ?_
  have hk := ValueIdx.contrEquiv1_symm_val dot_S4x1024x1024_S4x1024x21_S4x1024x21_2_1_1_2_0_0 1024 rfl rfl k
  have el : dot_S4x1024x1024_S4x1024x21_S4x1024x21_2_1_1_2_0_0.lhsIdx y ((ValueIdx.contrEquiv1 dot_S4x1024x1024_S4x1024x21_S4x1024x21_2_1_1_2_0_0 1024 rfl rfl).symm k) = lidx_main_v35 y k :=
    funext fun a => Fin.ext (by
      match a with
      | ⟨0, _⟩ => exact lhs_main_v35_0 _ _
      | ⟨1, _⟩ => exact lhs_main_v35_1 _ _
      | ⟨2, _⟩ => exact (lhs_main_v35_2 _ _).trans hk)
  have er : dot_S4x1024x1024_S4x1024x21_S4x1024x21_2_1_1_2_0_0.rhsIdx y ((ValueIdx.contrEquiv1 dot_S4x1024x1024_S4x1024x21_S4x1024x21_2_1_1_2_0_0 1024 rfl rfl).symm k) = ridx_main_v35 y k :=
    funext fun a => Fin.ext (by
      match a with
      | ⟨0, _⟩ => exact rhs_main_v35_0 _ _
      | ⟨1, _⟩ => exact (rhs_main_v35_1 _ _).trans hk
      | ⟨2, _⟩ => exact rhs_main_v35_2 _ _)
  rw [el, er]

/-- The reference's affinity is the specification's, over the reference's arrangement of the average. -/
theorem affR_eq (x5 : (⟨S2x4x8x1025x1025, .f32⟩ : BufTy).Contents (Elt Ideal)) (x6 : (⟨S2x4x8x1024x1024, .f32⟩ : BufTy).Contents (Elt Ideal))
    (P : (⟨S4x1024x21, .f32⟩ : BufTy).Contents (Elt Ideal)) :
    affR x5 x6 P = Cert.Spec.affinity (Cert.Spec.attnRef x5 x6) P := by
  funext y
  obtain ⟨b, i, cc, rfl⟩ : ∃ (b : Fin 4) (i : Fin 1024) (cc : Fin 21), y = ix3 b i cc := ⟨y 0, y 1, y 2, eq_ix3 y⟩
  unfold affR
  rw [dot_apply]
  show _ = ∑ j : Fin 1024, Cert.Spec.attnRef x5 x6 b i j * P (ix3 b j cc)
  refine Finset.sum_congr rfl fun k _ => ?_
  have hl : lidx_main_v35 (ix3 b i cc) k = ix3 b i k :=
    funext fun a => Fin.ext (by match a with | ⟨0, _⟩ => rfl | ⟨1, _⟩ => rfl | ⟨2, _⟩ => rfl)
  have hr : ridx_main_v35 (ix3 b i cc) k = ix3 b k cc :=
    funext fun a => Fin.ext (by match a with | ⟨0, _⟩ => rfl | ⟨1, _⟩ => rfl | ⟨2, _⟩ => rfl)
  rw [hl, hr, v21_ix3]

end Cert.RefSide

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.KChunk.lean ====
/-
  The kernel body's arithmetic, read at an entry over the extended reals.

  The body works on 128-row chunks of three 1024 × 1024 buffers. For chunk rows `s` of the shifted encoder map, `d`
  of the decoder map and `a` of the accumulator it stores
      a + (s / rowsum(s) + d / rowsum(d)),
  every row divided by its own sum over the 1024 columns (`chunkFn`; all eight chunks' stored values are this one
  function of their three loads). The zero fill is 0 everywhere; the shifted copy reads the [1,1,1,1024,1024] load at
  (0,0,0,r,c); and the last point's store is the matrix product of the accumulator times 2⁻⁵ with the class
  probabilities, the roundings to bf16 being the identity here.
-/
import proofs.«106885_j6708738916949_1_alg».proof.Proof.Gen.KernelIdeal.Skeleton
import proofs.«106885_j6708738916949_1_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

noncomputable section

namespace Cert.KerSide

open Idealize.ShloMosaic Idealize.ShloMosaic.ValueIdx Cert.KernelIdeal Cert.KernelIdeal.Gen

/-! ## The chunk function -/

/-- Each row's sum over its 1024 columns, repeated along the row. -/
def rowSums (v : FVec Ideal S128x1024 .f32) : FVec Ideal S128x1024 .f32 :=
  broadcastTo S128x1024
    (shapeCast S128x1 (multiReduction (F := Ideal) .add [1] S128 v 0x00000000#32 reduces_S128x1024_S128 (.inl rfl) rfl)
      shapeCasts_S128_S128x1) broadcasts_S128x1_S128x1024

/-- A [1,1,1,128,1024] load seen as [128,1024]. -/
def dropUnits (d : Vec Ideal S1x1x1x128x1024 .f32) : FVec Ideal S128x1024 .f32 :=
  shapeCast S128x1024 d shapeCasts_S1x1x1x128x1024_S128x1024

/-- What a chunk stores: the accumulator rows plus the two row-normalised maps' rows. -/
def chunkFn (s : Vec Ideal S128x1024 .f32) (d : Vec Ideal S1x1x1x128x1024 .f32) (a : Vec Ideal S128x1024 .f32) :
    FVec Ideal S128x1024 .f32 :=
  shapeCast S128x1024
    (addf a (addf (divf s (rowSums s)) (divf (dropUnits d) (rowSums (dropUnits d))))) shapeCasts_S128x1024_S128x1024

/-- The eight chunks' stored values are all this function of their loads (the second and the later ones' terms are
    cut in two or three where the body's text is). -/
theorem pay4_eq (s d a) : k0_pay4 (F := Ideal) s d a = chunkFn s d a := rfl
theorem pay5_eq (s d a) : k0_pay5 (F := Ideal) s d a = chunkFn s d a := rfl
theorem pay7_eq (s d a) : k0_pay7 (F := Ideal) (k0_pay6 s d a) = chunkFn s d a := rfl
theorem pay8_eq (s d a) : k0_pay8 (F := Ideal) s d a = chunkFn s d a := rfl
theorem pay11_eq (s d a) : k0_pay11 (F := Ideal) (k0_pay9 s) (k0_pay10 d) a = chunkFn s d a := rfl
theorem pay12_eq (s d a) : k0_pay12 (F := Ideal) s d a = chunkFn s d a := rfl
theorem pay14_eq (s d a) : k0_pay14 (F := Ideal) s (k0_pay13 s) d a = chunkFn s d a := rfl
theorem pay15_eq (s d a) : k0_pay15 (F := Ideal) s d a = chunkFn s d a := rfl

/-- A row's sum, at any column of that row. -/
theorem rowSums_apply (v : FVec Ideal S128x1024 .f32) (p : Fin 128) (q : Fin 1024) :
    rowSums v (ix2 p q) = ∑ k : Fin 1024, v (ix2 p k) := by
  unfold rowSums
  refine (broadcastTo_apply _ broadcasts_S128x1_S128x1024 (ix2 p q) (ix2 p (0 : Fin 1)) (fun a => ?_)).trans ?_
  · match a with
    | ⟨0, _⟩ => rfl
    | ⟨1, _⟩ => rfl
  refine (shapeCast_apply _ shapeCasts_S128_S128x1 (ix2 p (0 : Fin 1)) (ix1 p) ?_).trans ?_
  · rw [Shape.rowMajor_val_one, Shape.rowMajor_val_two]
    show p.val = p.val * 1 + 0
    omega
  refine (Ideal.multiReduction_add_single v 0x00000000#32 reduces_S128x1024_S128 (.inl rfl) rfl (ix1 p)).trans ?_
  exact Finset.sum_congr rfl fun k _ => congrArg v (funext fun a => Fin.ext (by
    match a with
    | ⟨0, _⟩ => rfl
    | ⟨1, _⟩ => rfl))

/-- The three unit axes dropped: entry (p, q) is the load's (0, 0, 0, p, q). -/
theorem dropUnits_apply (d : Vec Ideal S1x1x1x128x1024 .f32) (p : Fin 128) (q : Fin 1024) :
    dropUnits d (ix2 p q) = d (ix5 (0 : Fin 1) (0 : Fin 1) (0 : Fin 1) p q) := by
  unfold dropUnits
  refine shapeCast_apply d shapeCasts_S1x1x1x128x1024_S128x1024 (ix2 p q) _ ?_
  rw [Shape.rowMajor_val_five, Shape.rowMajor_val_two]
  show ((((0 : ℕ) * 1 + 0) * 1 + 0) * 128 + p.val) * 1024 + q.val = p.val * 1024 + q.val
  omega

/-- The chunk function at an entry. -/
theorem chunkFn_apply (s : Vec Ideal S128x1024 .f32) (d : Vec Ideal S1x1x1x128x1024 .f32) (a : Vec Ideal S128x1024 .f32)
    (p : Fin 128) (q : Fin 1024) :
    chunkFn s d a (ix2 p q)
      = a (ix2 p q) + (Ideal.div (s (ix2 p q)) (∑ k : Fin 1024, s (ix2 p k))
          + Ideal.div (d (ix5 (0 : Fin 1) (0 : Fin 1) (0 : Fin 1) p q))
              (∑ k : Fin 1024, d (ix5 (0 : Fin 1) (0 : Fin 1) (0 : Fin 1) p k))) := by
  unfold chunkFn
  rw [shapeCast_self, addf_apply, addf_apply, divf_apply, divf_apply, rowSums_apply, rowSums_apply, dropUnits_apply]
  exact congrArg (fun z => a (ix2 p q) + (Ideal.div (s (ix2 p q)) (∑ k : Fin 1024, s (ix2 p k))
      + Ideal.div (d (ix5 (0 : Fin 1) (0 : Fin 1) (0 : Fin 1) p q)) z))
    (Finset.sum_congr rfl fun k _ => dropUnits_apply d p k)

/-! ## The zero fill and the shifted copy -/

/-- The first point of a batch entry fills the accumulator with zero. -/
theorem pay2_apply (y : S1024x1024.Idx) : k0_pay2 (F := Ideal) y = 0 := by
  unfold k0_pay2
  rw [shapeCast_self]
  exact Ideal.ofBits_zero_f32

/-- The copy into the second scratch: entry (r, c) is the load's (0, 0, 0, r, c). -/
theorem pay3_apply (v : Vec Ideal S1x1x1x1024x1024 .f32) (r c : Fin 1024) :
    k0_pay3 (F := Ideal) v (ix2 r c) = v (ix5 (0 : Fin 1) (0 : Fin 1) (0 : Fin 1) r c) := by
  unfold k0_pay3
  rw [shapeCast_self]
  refine shapeCast_apply v shapeCasts_S1x1x1x1024x1024_S1024x1024 (ix2 r c) _ ?_
  rw [Shape.rowMajor_val_five, Shape.rowMajor_val_two]
  show ((((0 : ℕ) * 1 + 0) * 1 + 0) * 1024 + r.val) * 1024 + c.val = r.val * 1024 + c.val
  omega

/-! ## The last point's store -/

/-- The product of the scaled accumulator with the probabilities' block, at (0, r, cc). -/
theorem pay1_apply (acc : Vec Ideal S1024x1024 .f32) (prob : Vec Ideal S1x1024x21 .f32) (u : Fin 1) (r : Fin 1024) (cc : Fin 21) :
    k0_pay1 (F := Ideal) acc prob (ix3 u r cc)
      = ∑ j : Fin 1024, (acc (ix2 r j) * Ideal.ofBits .f32 0x3D000000#32) * prob (ix3 (0 : Fin 1) j cc) := by
  unfold k0_pay1
  refine (shapeCast_ab_1ab_apply _ shapeCasts_S1024x21_S1x1024x21 u r cc).trans ?_
  refine (Cert.LibMatmulNN.matmul_zero_apply' dot_S1024x1024_S1024x21_S1024x21_1_0_0_1_n_n rfl rfl rfl rfl rfl rfl none _ _ r cc).trans ?_
  refine Finset.sum_congr rfl fun j _ => ?_
  rw [truncf_apply, truncf_apply, mulf_apply, broadcast_apply, shapeCast_1ab_ab_apply]
  rfl

end Cert.KerSide

end
-- ==== Proof.KPieces.lean ====
/-
  What one grid point leaves in the accumulator, as one function of what it found there.

  A point copies its encoder block, the class token's row and column dropped, into a scratch, then for each of eight
  128-row chunks adds to the accumulator's rows the chunk's rows of that scratch and of the decoder block, every row
  divided by its own sum. Entry (i, j) of the accumulator therefore gains
      x0(i+1, j+1) / ∑ₖ x0(i+1, k+1)  +  x1(i, j) / ∑ₖ x1(i, k)
  (`stepFn`): the eight stores are eight row blocks of this one function of the buffer's index (`chunk_piece`).
-/
import proofs.«106885_j6708738916949_1_alg».proof.Proof.Gen.KernelIdeal.Frame
import proofs.«106885_j6708738916949_1_alg».proof.Proof.KChunk
import proofs.«106885_j6708738916949_1_alg».proof.Proof.Spec
import Idealize.ShloMosaic.Lib.Pipeline.Value
import Idealize.ShloMosaic.Lib.Tactic

noncomputable section

namespace Cert.KerSide

open Idealize.ShloMosaic Idealize.ShloMosaic.TcCoe Idealize.ShloMosaic.ValueIdx Idealize.SL.Sem
open Cert.KernelIdeal Cert.KernelIdeal.Gen

theorem hz2 : (![0, 0] : Fin 2 → ℕ) = fun _ => 0 := funext fun a => by fin_cases a <;> rfl

/-- An encoder block's entry (i+1, j+1) over its row's sum, the class token's column left out. -/
def encN (x0 : Vec Ideal S1x1x1x1025x1025 .f32) (i j : Fin 1024) : EReal :=
  Ideal.div (x0 (ix5 (0 : Fin 1) (0 : Fin 1) (0 : Fin 1) (Cert.Spec.up i) (Cert.Spec.up j)))
    (∑ k : Fin 1024, x0 (ix5 (0 : Fin 1) (0 : Fin 1) (0 : Fin 1) (Cert.Spec.up i) (Cert.Spec.up k)))

/-- A decoder block's entry (i, j) over its row's sum. -/
def decN (x1 : Vec Ideal S1x1x1x1024x1024 .f32) (i j : Fin 1024) : EReal :=
  Ideal.div (x1 (ix5 (0 : Fin 1) (0 : Fin 1) (0 : Fin 1) i j)) (∑ k : Fin 1024, x1 (ix5 (0 : Fin 1) (0 : Fin 1) (0 : Fin 1) i k))

/-- The accumulator after a point that found `a` in it. -/
def stepFn (x0 : Vec Ideal S1x1x1x1025x1025 .f32) (x1 : Vec Ideal S1x1x1x1024x1024 .f32) (a : Vec Ideal S1024x1024 .f32) :
    Vec Ideal S1024x1024 .f32 :=
  fun y => a y + (encN x0 (y 0) (y 1) + decN x1 (y 0) (y 1))

/-- A whole-buffer store read back through any rectangle reads the stored value there. -/
theorem readCov_whole {sig : RefSig} {κ : Kind} {sp : Space} (v : View sig κ sp S1024x1024 .f32)
    (inb0 : ∀ a, (![0, 0] : Fin 2 → ℕ) a + S1024x1024.size a ≤ S1024x1024.size a)
    (w : S1024x1024.Idx → Elt Ideal .f32) (r : Rect S1024x1024) :
    v.readCov [(⟨Rect.unit (s := S1024x1024) ![0, 0] S1024x1024.size inb0, w⟩ : View.Piece (Elt Ideal) S1024x1024 .f32)] r.toLoadRect
      = View.ld w r := by
  rw [View.readCov_eq_canon_ld _ _ _ (fun y => ⟨_, List.mem_singleton_self _, View.mem_set_unit_zero hz2 inb0 y⟩),
    View.canon_unit_zero hz2]

/-- Chunk rows o … o+127: the chunk function of the three loads is the step function at the chunk's place. -/
theorem chunk_piece (x0 : Vec Ideal S1x1x1x1025x1025 .f32) (x1 : Vec Ideal S1x1x1x1024x1024 .f32) (a : Vec Ideal S1024x1024 .f32)
    (o : ℕ) (inb : ∀ b, (![o, 0] : Fin 2 → ℕ) b + S128x1024.size b ≤ S1024x1024.size b)
    (inb5 : ∀ b, (![0, 0, 0, o, 0] : Fin 5 → ℕ) b + S1x1x1x128x1024.size b ≤ S1x1x1x1024x1024.size b)
    (inbs : ∀ b, (![0, 0, 0, 1, 1] : Fin 5 → ℕ) b + S1x1x1x1024x1024.size b ≤ S1x1x1x1025x1025.size b)
    (x : S128x1024.Idx) :
    chunkFn
        (View.ld (k0_pay3 (F := Ideal) (View.ld x0 (Rect.unit (s := S1x1x1x1025x1025) ![0, 0, 0, 1, 1] S1x1x1x1024x1024.size inbs)))
          (Rect.unit (s := S1024x1024) ![o, 0] S128x1024.size inb))
        (View.ld x1 (Rect.unit (s := S1x1x1x1024x1024) ![0, 0, 0, o, 0] S1x1x1x128x1024.size inb5))
        (View.ld a (Rect.unit (s := S1024x1024) ![o, 0] S128x1024.size inb)) x
      = stepFn x0 x1 a ((Rect.unit (s := S1024x1024) ![o, 0] S128x1024.size inb).emb x) := by
  obtain ⟨p, q, rfl⟩ : ∃ (p : Fin 128) (q : Fin 1024), x = ix2 p q := ⟨x 0, x 1, eq_ix2 x⟩
  have ho : o + 128 ≤ 1024 := inb 0
  have hP : o + p.val < 1024 := by have := p.isLt; omega
  have hidx : ∀ q' : Fin 1024, (Rect.unit (s := S1024x1024) ![o, 0] S128x1024.size inb).emb (ix2 p q') = ix2 (⟨o + p.val, hP⟩ : Fin 1024) q' :=
    fun q' => funext fun b => Fin.ext (by
      match b with
      | ⟨0, _⟩ => show o + 1 * p.val = o + p.val; omega
      | ⟨1, _⟩ => show 0 + 1 * q'.val = q'.val; omega)
  have hs : ∀ q' : Fin 1024,
      View.ld (k0_pay3 (F := Ideal) (View.ld x0 (Rect.unit (s := S1x1x1x1025x1025) ![0, 0, 0, 1, 1] S1x1x1x1024x1024.size inbs)))
          (Rect.unit (s := S1024x1024) ![o, 0] S128x1024.size inb) (ix2 p q')
        = x0 (ix5 (0 : Fin 1) (0 : Fin 1) (0 : Fin 1) (Cert.Spec.up ⟨o + p.val, hP⟩) (Cert.Spec.up q')) := fun q' => by
    show k0_pay3 (F := Ideal) _ ((Rect.unit (s := S1024x1024) ![o, 0] S128x1024.size inb).emb (ix2 p q')) = _
    rw [hidx q', pay3_apply]
    exact congrArg x0 (funext fun b => Fin.ext (by
      match b with
      | ⟨0, _⟩ => rfl
      | ⟨1, _⟩ => rfl
      | ⟨2, _⟩ => rfl
      | ⟨3, _⟩ => show 1 + 1 * (o + p.val) = o + p.val + 1; omega
      | ⟨4, _⟩ => show 1 + 1 * q'.val = q'.val + 1; omega))
  have hd : ∀ q' : Fin 1024,
      View.ld x1 (Rect.unit (s := S1x1x1x1024x1024) ![0, 0, 0, o, 0] S1x1x1x128x1024.size inb5) (ix5 (0 : Fin 1) (0 : Fin 1) (0 : Fin 1) p q')
        = x1 (ix5 (0 : Fin 1) (0 : Fin 1) (0 : Fin 1) (⟨o + p.val, hP⟩ : Fin 1024) q') := fun q' =>
    congrArg x1 (funext fun b => Fin.ext (by
      match b with
      | ⟨0, _⟩ => rfl
      | ⟨1, _⟩ => rfl
      | ⟨2, _⟩ => rfl
      | ⟨3, _⟩ => show o + 1 * p.val = o + p.val; omega
      | ⟨4, _⟩ => show 0 + 1 * q'.val = q'.val; omega))
  have ha : View.ld a (Rect.unit (s := S1024x1024) ![o, 0] S128x1024.size inb) (ix2 p q) = a (ix2 (⟨o + p.val, hP⟩ : Fin 1024) q) :=
    congrArg a (hidx q)
  rw [chunkFn_apply, hidx q, ha, hs q, hd q, Finset.sum_congr rfl (fun k _ => hs k), Finset.sum_congr rfl (fun k _ => hd k)]
  rfl

/-- The same with the shifted copy read back from the scratch it was stored to, as a point's run states it. -/
theorem chunk_piece' {sig' : RefSig} {κ' : Kind} {sp' : Space} (v7 : View sig' κ' sp' S1024x1024 .f32)
    (x0 : Vec Ideal S1x1x1x1025x1025 .f32) (x1 : Vec Ideal S1x1x1x1024x1024 .f32) (a : Vec Ideal S1024x1024 .f32)
    (o : ℕ) (inb : ∀ b, (![o, 0] : Fin 2 → ℕ) b + S128x1024.size b ≤ S1024x1024.size b)
    (inb5 : ∀ b, (![0, 0, 0, o, 0] : Fin 5 → ℕ) b + S1x1x1x128x1024.size b ≤ S1x1x1x1024x1024.size b)
    (inbs : ∀ b, (![0, 0, 0, 1, 1] : Fin 5 → ℕ) b + S1x1x1x1024x1024.size b ≤ S1x1x1x1025x1025.size b)
    (inb0 : ∀ b, (![0, 0] : Fin 2 → ℕ) b + S1024x1024.size b ≤ S1024x1024.size b)
    (x : S128x1024.Idx) :
    chunkFn
        (v7.readCov [(⟨Rect.unit (s := S1024x1024) ![0, 0] S1024x1024.size inb0,
            k0_pay3 (F := Ideal) (View.ld x0 (Rect.unit (s := S1x1x1x1025x1025) ![0, 0, 0, 1, 1] S1x1x1x1024x1024.size inbs))⟩ :
              View.Piece (Elt Ideal) S1024x1024 .f32)]
          (Rect.unit (s := S1024x1024) ![o, 0] S128x1024.size inb).toLoadRect)
        (View.ld x1 (Rect.unit (s := S1x1x1x1024x1024) ![0, 0, 0, o, 0] S1x1x1x128x1024.size inb5))
        (View.ld a (Rect.unit (s := S1024x1024) ![o, 0] S128x1024.size inb)) x
      = stepFn x0 x1 a ((Rect.unit (s := S1024x1024) ![o, 0] S128x1024.size inb).emb x) := by
  rw [readCov_whole]
  exact chunk_piece x0 x1 a o inb inb5 inbs x

/-! ## A middle point -/

/-- A point that is neither the first nor the last of its batch entry steps the accumulator once. -/
theorem sout_B (c : Dev nD) (i : grid0.Coords) (arg2 : Memref sig .tc .vmem S1x1x1x1025x1025 .f32) (harg2 : arg2.IsWhole) (arg3 : Memref sig .tc .vmem S1x1x1x1024x1024 .f32) (harg3 : arg3.IsWhole) (arg4 : Memref sig .tc .vmem S1x1024x21 .f32) (harg4 : arg4.IsWhole) (arg5 : Memref sig .tc .vmem S1x1024x21 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec Ideal S1x1x1x1025x1025 .f32) (x1 : Vec Ideal S1x1x1x1024x1024 .f32) (x2 : Vec Ideal S1x1024x21 .f32)
    (xs0 : Vec Ideal S1024x1024 .f32) :
    sout0_B_0 (F := Ideal) c i arg2 harg2 arg3 harg3 arg4 harg4 arg5 harg5 arg6 harg6 arg7 harg7 hc0 hc1 x0 x1 x2 xs0 = stepFn x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0)]
  funext y
  refine View.canon_apply_of_pieces (stepFn x0 x1 xs0) _ ?_ y (scover0_B_0 c i arg2 harg2 arg3 harg3 arg4 harg4 arg5 harg5 arg6 harg6 arg7 harg7 hc0 hc1 x0 x1 x2 xs0 y)
  unfold kernelRun0_B
  dsimp only
  sl_unfold_words
  simp only [View.readAt_eq_ld, harg2.read_unread, harg3.read_unread, harg6.read_unread,
    pay4_eq, pay5_eq, pay7_eq, pay8_eq, pay11_eq, pay12_eq, pay14_eq, pay15_eq]
  intro p hp
  simp only [List.mem_cons, List.not_mem_nil, or_false] at hp
  rcases hp with rfl | rfl | rfl | rfl | rfl | rfl | rfl | rfl <;>
    exact fun x => chunk_piece' arg7.view x0 x1 xs0 _ _ _ _ _ x

/-! ## The last point -/

/-- The last point of a batch entry steps the accumulator like any other, -/
theorem sout_C (c : Dev nD) (i : grid0.Coords) (arg2 : Memref sig .tc .vmem S1x1x1x1025x1025 .f32) (harg2 : arg2.IsWhole) (arg3 : Memref sig .tc .vmem S1x1x1x1024x1024 .f32) (harg3 : arg3.IsWhole) (arg4 : Memref sig .tc .vmem S1x1024x21 .f32) (harg4 : arg4.IsWhole) (arg5 : Memref sig .tc .vmem S1x1024x21 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec Ideal S1x1x1x1025x1025 .f32) (x1 : Vec Ideal S1x1x1x1024x1024 .f32) (x2 : Vec Ideal S1x1024x21 .f32)
    (xs0 : Vec Ideal S1024x1024 .f32) :
    sout0_C_0 (F := Ideal) c i arg2 harg2 arg3 harg3 arg4 harg4 arg5 harg5 arg6 harg6 arg7 harg7 hc0 hc1 x0 x1 x2 xs0 = stepFn x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0)]
  funext y
  refine View.canon_apply_of_pieces (stepFn x0 x1 xs0) _ ?_ y (scover0_C_0 c i arg2 harg2 arg3 harg3 arg4 harg4 arg5 harg5 arg6 harg6 arg7 harg7 hc0 hc1 x0 x1 x2 xs0 y)
  unfold kernelRun0_C
  dsimp only
  sl_unfold_words
  simp only [View.readAt_eq_ld, harg2.read_unread, harg3.read_unread, harg6.read_unread,
    pay4_eq, pay5_eq, pay7_eq, pay8_eq, pay11_eq, pay12_eq, pay14_eq, pay15_eq]
  intro p hp
  simp only [List.mem_cons, List.not_mem_nil, or_false] at hp
  rcases hp with rfl | rfl | rfl | rfl | rfl | rfl | rfl | rfl <;>
    exact fun x => chunk_piece' arg7.view x0 x1 xs0 _ _ _ _ _ x

theorem hz3 : (![0, 0, 0] : Fin 3 → ℕ) = fun _ => 0 := funext fun a => by fin_cases a <;> rfl

/-- and then stores, into the output's staging buffer, the product of the stepped accumulator (scaled) with the
    probabilities' block: the accumulator it multiplies is read back whole from the eight chunk stores. -/
theorem out_C (c : Dev nD) (i : grid0.Coords) (arg2 : Memref sig .tc .vmem S1x1x1x1025x1025 .f32) (harg2 : arg2.IsWhole) (arg3 : Memref sig .tc .vmem S1x1x1x1024x1024 .f32) (harg3 : arg3.IsWhole) (arg4 : Memref sig .tc .vmem S1x1024x21 .f32) (harg4 : arg4.IsWhole) (arg5 : Memref sig .tc .vmem S1x1024x21 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec Ideal S1x1x1x1025x1025 .f32) (x1 : Vec Ideal S1x1x1x1024x1024 .f32) (x2 : Vec Ideal S1x1024x21 .f32)
    (xs0 : Vec Ideal S1024x1024 .f32) :
    out0_C_3 (F := Ideal) c i arg2 harg2 arg3 harg3 arg4 harg4 arg5 harg5 arg6 harg6 arg7 harg7 hc0 hc1 x0 x1 x2 xs0 = k0_pay1 (F := Ideal) (stepFn x0 x1 xs0) x2 := by
  have hL : View.canon (kernelRun0_C (F := Ideal) c i arg2 harg2 arg3 harg3 arg4 harg4 arg5 harg5 arg6 harg6 arg7 harg7 hc0 hc1 x0 x1 x2 xs0).2.1 = stepFn x0 x1 xs0 :=
    (View.read_writes_eq_canon VS0_0 VS0_0.junk _ (scover0_C_0 c i arg2 harg2 arg3 harg3 arg4 harg4 arg5 harg5 arg6 harg6 arg7 harg7 hc0 hc1 x0 x1 x2 xs0)).symm.trans
      (sout_C c i arg2 harg2 arg3 harg3 arg4 harg4 arg5 harg5 arg6 harg6 arg7 harg7 hc0 hc1 x0 x1 x2 xs0)
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C at hL ⊢
  dsimp only at hL ⊢
  rw [View.canon_unit_zero hz3]
  unfold kernelRun0_C.sl.v195
  rw [View.readCov_eq_canon']
  rw [hL, View.readAt_eq_ld, harg4.read_unread]
  exact congrArg₂ (k0_pay1 (F := Ideal)) (View.ld_unit_zero hz2 _ (stepFn x0 x1 xs0)) (View.ld_unit_zero hz3 _ x2)

/-! ## The first point

  The first point of a batch entry stores zero over the whole accumulator and then runs the eight chunks; chunk k's
  load of the accumulator reads back, through rows 128k … 128k+127, what the zero fill and the chunks before it left.
  Those rows no earlier chunk touched, so the load reads zero, and the chunk stores the step function of zero there.
  `Good n L` says of the stores `L` made so far: rows from `n` on still hold zero, rows below `n` hold the step function
  of zero. -/

/-- The stores so far have stepped the rows below `n` and left the rest at zero. -/
def Good (x0 : Vec Ideal S1x1x1x1025x1025 .f32) (x1 : Vec Ideal S1x1x1x1024x1024 .f32) (n : ℕ)
    (L : List (View.Piece (Elt Ideal) S1024x1024 .f32)) : Prop :=
  (∀ y : S1024x1024.Idx, n ≤ (y 0).val → View.canon L y = 0) ∧
  (∀ y : S1024x1024.Idx, (y 0).val < n → View.canon L y = stepFn x0 x1 (fun _ => 0) y)

theorem good_zero (x0 : Vec Ideal S1x1x1x1025x1025 .f32) (x1 : Vec Ideal S1x1x1x1024x1024 .f32)
    (inb0 : ∀ b, (![0, 0] : Fin 2 → ℕ) b + S1024x1024.size b ≤ S1024x1024.size b) :
    Good x0 x1 0 [(⟨Rect.unit (s := S1024x1024) ![0, 0] S1024x1024.size inb0, k0_pay2 (F := Ideal)⟩ :
      View.Piece (Elt Ideal) S1024x1024 .f32)] :=
  ⟨fun y _ => by rw [View.canon_unit_zero hz2]; exact pay2_apply y, fun y hy => absurd hy (Nat.not_lt_zero _)⟩

/-- One more chunk: rows n … n+127 are stepped from the zero they still held. -/
theorem good_step (x0 : Vec Ideal S1x1x1x1025x1025 .f32) (x1 : Vec Ideal S1x1x1x1024x1024 .f32) (n : ℕ)
    (L : List (View.Piece (Elt Ideal) S1024x1024 .f32)) (hL : Good x0 x1 n L)
    {sig6 : RefSig} {κ6 : Kind} {sp6 : Space} (v6 : View sig6 κ6 sp6 S1024x1024 .f32)
    {sig7 : RefSig} {κ7 : Kind} {sp7 : Space} (v7 : View sig7 κ7 sp7 S1024x1024 .f32)
    (inb : ∀ b, (![n, 0] : Fin 2 → ℕ) b + S128x1024.size b ≤ S1024x1024.size b)
    (inb5 : ∀ b, (![0, 0, 0, n, 0] : Fin 5 → ℕ) b + S1x1x1x128x1024.size b ≤ S1x1x1x1024x1024.size b)
    (inbs : ∀ b, (![0, 0, 0, 1, 1] : Fin 5 → ℕ) b + S1x1x1x1024x1024.size b ≤ S1x1x1x1025x1025.size b)
    (inb0 : ∀ b, (![0, 0] : Fin 2 → ℕ) b + S1024x1024.size b ≤ S1024x1024.size b) :
    Good x0 x1 (n + 128)
      ((⟨Rect.unit (s := S1024x1024) ![n, 0] S128x1024.size inb,
          chunkFn
            (v7.readCov [(⟨Rect.unit (s := S1024x1024) ![0, 0] S1024x1024.size inb0,
                k0_pay3 (F := Ideal) (View.ld x0 (Rect.unit (s := S1x1x1x1025x1025) ![0, 0, 0, 1, 1] S1x1x1x1024x1024.size inbs))⟩ :
                  View.Piece (Elt Ideal) S1024x1024 .f32)]
              (Rect.unit (s := S1024x1024) ![n, 0] S128x1024.size inb).toLoadRect)
            (View.ld x1 (Rect.unit (s := S1x1x1x1024x1024) ![0, 0, 0, n, 0] S1x1x1x128x1024.size inb5))
            (v6.readCov L (Rect.unit (s := S1024x1024) ![n, 0] S128x1024.size inb).toLoadRect)⟩ :
        View.Piece (Elt Ideal) S1024x1024 .f32) :: L) := by
  obtain ⟨hzero, hstep⟩ := hL
  have hn : n + 128 ≤ 1024 := inb 0
  have hacc : v6.readCov L (Rect.unit (s := S1024x1024) ![n, 0] S128x1024.size inb).toLoadRect
      = View.ld (fun _ => (0 : EReal)) (Rect.unit (s := S1024x1024) ![n, 0] S128x1024.size inb) := by
    rw [View.readCov_eq_canon']
    funext j
    exact hzero _ (by show n ≤ n + 1 * (j 0).val; omega)
  constructor
  · intro y hy
    rw [View.canon_cons_of_not_mem _ _ (by
      rw [Rect.mem_set_unit]
      intro h
      have h2 : (y 0).val < n + 128 := (h 0).2
      omega)]
    exact hzero y (by omega)
  · intro y hy
    by_cases hlo : (y 0).val < n
    · rw [View.canon_cons_of_not_mem _ _ (by
        rw [Rect.mem_set_unit]
        intro h
        have h1 : n ≤ (y 0).val := (h 0).1
        omega)]
      exact hstep y hlo
    · have hy0 : (y 0).val - n < 128 := by omega
      obtain ⟨x, rfl⟩ : ∃ x : S128x1024.Idx, (Rect.unit (s := S1024x1024) ![n, 0] S128x1024.size inb).emb x = y :=
        ⟨ix2 (⟨(y 0).val - n, hy0⟩ : Fin 128) (y 1), funext fun b => Fin.ext (by
          match b with
          | ⟨0, _⟩ => show n + 1 * ((y 0).val - n) = (y 0).val; omega
          | ⟨1, _⟩ => show 0 + 1 * (y 1).val = (y 1).val; omega)⟩
      rw [View.canon_cons_emb, hacc]
      exact chunk_piece' v7 x0 x1 (fun _ => 0) n inb inb5 inbs inb0 x

/-- After the zero fill alone: zero everywhere. -/
theorem lvl0 (x0 : Vec Ideal S1x1x1x1025x1025 .f32) (x1 : Vec Ideal S1x1x1x1024x1024 .f32) :
    Good x0 x1 0 (kernelRun0_A.sl.HS0_1 (F := Ideal)) := by
  unfold kernelRun0_A.sl.HS0_1
  exact good_zero x0 x1 _

/-- After the zero fill and chunks 0 … 0: rows below 128 stepped, the rest still zero. -/
theorem lvl1 (c : Dev nD) (arg2 : Memref sig .tc .vmem S1x1x1x1025x1025 .f32) (harg2 : arg2.IsWhole) (arg3 : Memref sig .tc .vmem S1x1x1x1024x1024 .f32) (harg3 : arg3.IsWhole) (arg6 : Memref sig .tc .vmem S1024x1024 .f32) (arg7 : Memref sig .tc .vmem S1024x1024 .f32)
    (x0 : Vec Ideal S1x1x1x1025x1025 .f32) (x1 : Vec Ideal S1x1x1x1024x1024 .f32) :
    Good x0 x1 128 (kernelRun0_A.sl.HS0_2 (F := Ideal) c arg2 harg2 arg3 harg3 arg6 arg7 x0 x1) := by
  have h := lvl0 x0 x1
  unfold kernelRun0_A.sl.HS0_2 kernelRun0_A.sl.v24
  generalize kernelRun0_A.sl.HS0_1 (F := Ideal) = L at h ⊢
  sl_unfold_words
  simp only [View.readAt_eq_ld, harg2.read_unread, harg3.read_unread, pay4_eq, pay5_eq, pay7_eq, pay8_eq, pay11_eq, pay12_eq, pay14_eq, pay15_eq]
  exact good_step x0 x1 0 L h arg6.view arg7.view _ _ _ _

/-- After the zero fill and chunks 0 … 1: rows below 256 stepped, the rest still zero. -/
theorem lvl2 (c : Dev nD) (arg2 : Memref sig .tc .vmem S1x1x1x1025x1025 .f32) (harg2 : arg2.IsWhole) (arg3 : Memref sig .tc .vmem S1x1x1x1024x1024 .f32) (harg3 : arg3.IsWhole) (arg6 : Memref sig .tc .vmem S1024x1024 .f32) (arg7 : Memref sig .tc .vmem S1024x1024 .f32)
    (x0 : Vec Ideal S1x1x1x1025x1025 .f32) (x1 : Vec Ideal S1x1x1x1024x1024 .f32) :
    Good x0 x1 256 (kernelRun0_A.sl.HS0_3 (F := Ideal) c arg2 harg2 arg3 harg3 arg6 arg7 x0 x1) := by
  have h := lvl1 c arg2 harg2 arg3 harg3 arg6 arg7 x0 x1
  unfold kernelRun0_A.sl.HS0_3 kernelRun0_A.sl.v47
  generalize kernelRun0_A.sl.HS0_2 (F := Ideal) c arg2 harg2 arg3 harg3 arg6 arg7 x0 x1 = L at h ⊢
  sl_unfold_words
  simp only [View.readAt_eq_ld, harg2.read_unread, harg3.read_unread, pay4_eq, pay5_eq, pay7_eq, pay8_eq, pay11_eq, pay12_eq, pay14_eq, pay15_eq]
  exact good_step x0 x1 128 L h arg6.view arg7.view _ _ _ _

/-- After the zero fill and chunks 0 … 2: rows below 384 stepped, the rest still zero. -/
theorem lvl3 (c : Dev nD) (arg2 : Memref sig .tc .vmem S1x1x1x1025x1025 .f32) (harg2 : arg2.IsWhole) (arg3 : Memref sig .tc .vmem S1x1x1x1024x1024 .f32) (harg3 : arg3.IsWhole) (arg6 : Memref sig .tc .vmem S1024x1024 .f32) (arg7 : Memref sig .tc .vmem S1024x1024 .f32)
    (x0 : Vec Ideal S1x1x1x1025x1025 .f32) (x1 : Vec Ideal S1x1x1x1024x1024 .f32) :
    Good x0 x1 384 (kernelRun0_A.sl.HS0_4 (F := Ideal) c arg2 harg2 arg3 harg3 arg6 arg7 x0 x1) := by
  have h := lvl2 c arg2 harg2 arg3 harg3 arg6 arg7 x0 x1
  unfold kernelRun0_A.sl.HS0_4 kernelRun0_A.sl.r kernelRun0_A.sl.v70
  generalize kernelRun0_A.sl.HS0_3 (F := Ideal) c arg2 harg2 arg3 harg3 arg6 arg7 x0 x1 = L at h ⊢
  sl_unfold_words
  simp only [View.readAt_eq_ld, harg2.read_unread, harg3.read_unread, pay4_eq, pay5_eq, pay7_eq, pay8_eq, pay11_eq, pay12_eq, pay14_eq, pay15_eq]
  exact good_step x0 x1 256 L h arg6.view arg7.view _ _ _ _

/-- After the zero fill and chunks 0 … 3: rows below 512 stepped, the rest still zero. -/
theorem lvl4 (c : Dev nD) (arg2 : Memref sig .tc .vmem S1x1x1x1025x1025 .f32) (harg2 : arg2.IsWhole) (arg3 : Memref sig .tc .vmem S1x1x1x1024x1024 .f32) (harg3 : arg3.IsWhole) (arg6 : Memref sig .tc .vmem S1024x1024 .f32) (arg7 : Memref sig .tc .vmem S1024x1024 .f32)
    (x0 : Vec Ideal S1x1x1x1025x1025 .f32) (x1 : Vec Ideal S1x1x1x1024x1024 .f32) :
    Good x0 x1 512 (kernelRun0_A.sl.HS0_5 (F := Ideal) c arg2 harg2 arg3 harg3 arg6 arg7 x0 x1) := by
  have h := lvl3 c arg2 harg2 arg3 harg3 arg6 arg7 x0 x1
  unfold kernelRun0_A.sl.HS0_5 kernelRun0_A.sl.v93
  generalize kernelRun0_A.sl.HS0_4 (F := Ideal) c arg2 harg2 arg3 harg3 arg6 arg7 x0 x1 = L at h ⊢
  sl_unfold_words
  simp only [View.readAt_eq_ld, harg2.read_unread, harg3.read_unread, pay4_eq, pay5_eq, pay7_eq, pay8_eq, pay11_eq, pay12_eq, pay14_eq, pay15_eq]
  exact good_step x0 x1 384 L h arg6.view arg7.view _ _ _ _

/-- After the zero fill and chunks 0 … 4: rows below 640 stepped, the rest still zero. -/
theorem lvl5 (c : Dev nD) (arg2 : Memref sig .tc .vmem S1x1x1x1025x1025 .f32) (harg2 : arg2.IsWhole) (arg3 : Memref sig .tc .vmem S1x1x1x1024x1024 .f32) (harg3 : arg3.IsWhole) (arg6 : Memref sig .tc .vmem S1024x1024 .f32) (arg7 : Memref sig .tc .vmem S1024x1024 .f32)
    (x0 : Vec Ideal S1x1x1x1025x1025 .f32) (x1 : Vec Ideal S1x1x1x1024x1024 .f32) :
    Good x0 x1 640 (kernelRun0_A.sl.HS0_6 (F := Ideal) c arg2 harg2 arg3 harg3 arg6 arg7 x0 x1) := by
  have h := lvl4 c arg2 harg2 arg3 harg3 arg6 arg7 x0 x1
  unfold kernelRun0_A.sl.HS0_6 kernelRun0_A.sl.v116
  generalize kernelRun0_A.sl.HS0_5 (F := Ideal) c arg2 harg2 arg3 harg3 arg6 arg7 x0 x1 = L at h ⊢
  sl_unfold_words
  simp only [View.readAt_eq_ld, harg2.read_unread, harg3.read_unread, pay4_eq, pay5_eq, pay7_eq, pay8_eq, pay11_eq, pay12_eq, pay14_eq, pay15_eq]
  exact good_step x0 x1 512 L h arg6.view arg7.view _ _ _ _

/-- After the zero fill and chunks 0 … 5: rows below 768 stepped, the rest still zero. -/
theorem lvl6 (c : Dev nD) (arg2 : Memref sig .tc .vmem S1x1x1x1025x1025 .f32) (harg2 : arg2.IsWhole) (arg3 : Memref sig .tc .vmem S1x1x1x1024x1024 .f32) (harg3 : arg3.IsWhole) (arg6 : Memref sig .tc .vmem S1024x1024 .f32) (arg7 : Memref sig .tc .vmem S1024x1024 .f32)
    (x0 : Vec Ideal S1x1x1x1025x1025 .f32) (x1 : Vec Ideal S1x1x1x1024x1024 .f32) :
    Good x0 x1 768 (kernelRun0_A.sl.HS0_7 (F := Ideal) c arg2 harg2 arg3 harg3 arg6 arg7 x0 x1) := by
  have h := lvl5 c arg2 harg2 arg3 harg3 arg6 arg7 x0 x1
  unfold kernelRun0_A.sl.HS0_7 kernelRun0_A.sl.v139
  generalize kernelRun0_A.sl.HS0_6 (F := Ideal) c arg2 harg2 arg3 harg3 arg6 arg7 x0 x1 = L at h ⊢
  sl_unfold_words
  simp only [View.readAt_eq_ld, harg2.read_unread, harg3.read_unread, pay4_eq, pay5_eq, pay7_eq, pay8_eq, pay11_eq, pay12_eq, pay14_eq, pay15_eq]
  exact good_step x0 x1 640 L h arg6.view arg7.view _ _ _ _

/-- After the zero fill and chunks 0 … 6: rows below 896 stepped, the rest still zero. -/
theorem lvl7 (c : Dev nD) (arg2 : Memref sig .tc .vmem S1x1x1x1025x1025 .f32) (harg2 : arg2.IsWhole) (arg3 : Memref sig .tc .vmem S1x1x1x1024x1024 .f32) (harg3 : arg3.IsWhole) (arg6 : Memref sig .tc .vmem S1024x1024 .f32) (arg7 : Memref sig .tc .vmem S1024x1024 .f32)
    (x0 : Vec Ideal S1x1x1x1025x1025 .f32) (x1 : Vec Ideal S1x1x1x1024x1024 .f32) :
    Good x0 x1 896 (kernelRun0_A.sl.HS0_8 (F := Ideal) c arg2 harg2 arg3 harg3 arg6 arg7 x0 x1) := by
  have h := lvl6 c arg2 harg2 arg3 harg3 arg6 arg7 x0 x1
  unfold kernelRun0_A.sl.HS0_8 kernelRun0_A.sl.v162
  generalize kernelRun0_A.sl.HS0_7 (F := Ideal) c arg2 harg2 arg3 harg3 arg6 arg7 x0 x1 = L at h ⊢
  sl_unfold_words
  simp only [View.readAt_eq_ld, harg2.read_unread, harg3.read_unread, pay4_eq, pay5_eq, pay7_eq, pay8_eq, pay11_eq, pay12_eq, pay14_eq, pay15_eq]
  exact good_step x0 x1 768 L h arg6.view arg7.view _ _ _ _

/-- The first point of a batch entry zeroes the accumulator and then steps it: the step function of zero. -/
theorem sout_A (c : Dev nD) (i : grid0.Coords) (arg2 : Memref sig .tc .vmem S1x1x1x1025x1025 .f32) (harg2 : arg2.IsWhole) (arg3 : Memref sig .tc .vmem S1x1x1x1024x1024 .f32) (harg3 : arg3.IsWhole) (arg4 : Memref sig .tc .vmem S1x1024x21 .f32) (harg4 : arg4.IsWhole) (arg5 : Memref sig .tc .vmem S1x1024x21 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec Ideal S1x1x1x1025x1025 .f32) (x1 : Vec Ideal S1x1x1x1024x1024 .f32) (x2 : Vec Ideal S1x1024x21 .f32) :
    sout0_A_0 (F := Ideal) c i arg2 harg2 arg3 harg3 arg4 harg4 arg5 harg5 arg6 harg6 arg7 harg7 hc0 hc1 x0 x1 x2 = stepFn x0 x1 (fun _ => 0) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  have h := lvl7 c arg2 harg2 arg3 harg3 arg6 arg7 x0 x1
  unfold kernelRun0_A.sl.r_4 kernelRun0_A.sl.v185
  generalize kernelRun0_A.sl.HS0_8 (F := Ideal) c arg2 harg2 arg3 harg3 arg6 arg7 x0 x1 = L at h ⊢
  sl_unfold_words
  simp only [View.readAt_eq_ld, harg2.read_unread, harg3.read_unread, pay4_eq, pay5_eq, pay7_eq, pay8_eq, pay11_eq, pay12_eq, pay14_eq, pay15_eq]
  funext y
  exact (good_step x0 x1 896 L h arg6.view arg7.view _ _ _ _).2 y (y 0).isLt

end Cert.KerSide

end
-- ==== Proof.KBlocks.lean ====
/-
  The host side of the kernel program, part one: the class probabilities as one function of the logits, and what
  each grid point's input blocks are, entry by entry.

  The grid has 4 · 16 points; point t works on batch entry t / 16 and, within it, on layer (t % 16) / 8 and head
  t % 8. The encoder and decoder windows cut one (layer, batch entry, head) map out of their arrays; the
  probabilities' window cuts one batch entry out of the class probabilities, which the host computed before the
  region by a softmax over the class axis followed by a reshape and a transposition. That chain of host operations is
  carried as the single function `probK` of the logits and is opened exactly once, to identify it with what the
  region finds in the probabilities' array.
-/
import proofs.«106885_j6708738916949_1_alg».proof.Proof.Gen.KernelIdeal.Frame
import proofs.«106885_j6708738916949_1_alg».proof.Proof.Spec
import Idealize.ShloMosaic.Lib.Pipeline.Value
import Idealize.ShloMosaic.Lib.ValueIdx
import Idealize.ShloMosaic.Lib.StableHlo.Run
import Idealize.ShloMosaic.Lib.Tactic

noncomputable section

namespace Cert.KerSide

open Cert.KernelIdeal Cert.KernelIdeal.Gen Idealize.ShloMosaic Idealize.ShloMosaic.TcCoe Idealize.SL.Sem
open Idealize.ShloMosaic.Pipeline (Dat)
open Idealize.ShloMosaic.ValueIdx

/-- The class probabilities: the softmax of the logits over the class axis (the maximum subtracted first), reshaped to
    [4, 21, 1024] and transposed to [4, 1024, 21] — the host operations before the region as one function of the
    logits. Never opened. -/
def probK (a0 : (⟨S4x21x32x32, .f32⟩ : BufTy).Contents (Elt Ideal)) : (⟨S4x1024x21, .f32⟩ : BufTy).Contents (Elt Ideal) :=
  let ninf : FVec Ideal S_ .f32 := constant (F := Ideal) S_ .f32 0xFF800000#32
  let zero : FVec Ideal S_ .f32 := constant (F := Ideal) S_ .f32 0x00000000#32
  let v0 : FVec Ideal S4x32x32 .f32 := Host.reduce (FloatOps.maximumf (F := Ideal)) a0 ninf reducesTo_S4x21x32x32_S4x32x32_d1 h_S_
  let v1 : FVec Ideal S4x32x32 .f32 := broadcastInDim S4x32x32 ![] bcast_S_S4x32x32 ninf
  let v2 : FVec Ideal S4x32x32 .f32 := maximumf (F := Ideal) v1 v0
  let v3 : FVec Ideal S4x1x32x32 .f32 := broadcastInDim S4x1x32x32 ![0, 2, 3] bcast_S4x32x32_S4x1x32x32_0_2_3 v2
  let v4 : FVec Ideal S4x21x32x32 .f32 := broadcastInDim S4x21x32x32 ![0, 1, 2, 3] bcast_S4x1x32x32_S4x21x32x32_0_1_2_3 v3
  let v5 : FVec Ideal S4x21x32x32 .f32 := subf (F := Ideal) a0 v4
  let v6 : FVec Ideal S4x21x32x32 .f32 := Host.exp (F := Ideal) v5
  let v7 : FVec Ideal S4x32x32 .f32 := Host.reduceAdd (F := Ideal) v6 zero reducesTo_S4x21x32x32_S4x32x32_d1 h_S_
  let v8 : FVec Ideal S4x1x32x32 .f32 := broadcastInDim S4x1x32x32 ![0, 2, 3] bcast_S4x32x32_S4x1x32x32_0_2_3 v7
  let v9 : FVec Ideal S4x21x32x32 .f32 := broadcastInDim S4x21x32x32 ![0, 1, 2, 3] bcast_S4x1x32x32_S4x21x32x32_0_1_2_3 v8
  let v10 : FVec Ideal S4x21x32x32 .f32 := Host.divf (F := Ideal) v6 v9
  let v11 : FVec Ideal S4x21x1024 .f32 := shapeCast S4x21x1024 v10 shapeCasts_S4x21x32x32_S4x21x1024
  transpose S4x1024x21 [0, 2, 1] v11 transposes_S4x21x1024_S4x1024x21_0_2_1

/-- The batch entry of grid point t. -/
abbrev batchOf (t : Fin cfg0.N) : Fin 4 := ⟨t.val / 16, by have := t.isLt; have : cfg0.N = 64 := N_0; omega⟩

variable (m : (ℓ : Loc nD τ sig) → Buf (Elt Ideal) ℓ)

/-- The probabilities as the region finds them. -/
theorem V_prob (c : Dev nD) :
    (V m c main_v12 : (⟨S4x1024x21, .f32⟩ : BufTy).Contents (Elt Ideal)) = probK (m ((c.tc : Thread nD τ).loc main_arg0)) := by
  unfold probK
  dsimp only [Gen.V, Gen.V0]
  simp only [Gen.hostOps0, List.flatten_cons, List.flatten_nil, List.append_nil, List.cons_append, List.nil_append]
  after_results
  rfl

/-! ## The windows' index maps, decided once over the grid -/

/-- The encoder window at point t: layer (t % 16) / 8, batch entry t / 16, head t % 8, the whole map. -/
theorem index_enc : ∀ t : Fin cfg0.N, win0_0.index t (0 : Fin 5) = t.val % 16 / 8 ∧ win0_0.index t (1 : Fin 5) = t.val / 16
    ∧ win0_0.index t (2 : Fin 5) = t.val % 8 ∧ win0_0.index t (3 : Fin 5) = 0 ∧ win0_0.index t (4 : Fin 5) = 0 :=
  (by decide +kernel : ∀ t : Fin grid0.N, _)

/-- The decoder window at point t: the same. -/
theorem index_dec : ∀ t : Fin cfg0.N, win0_1.index t (0 : Fin 5) = t.val % 16 / 8 ∧ win0_1.index t (1 : Fin 5) = t.val / 16
    ∧ win0_1.index t (2 : Fin 5) = t.val % 8 ∧ win0_1.index t (3 : Fin 5) = 0 ∧ win0_1.index t (4 : Fin 5) = 0 :=
  (by decide +kernel : ∀ t : Fin grid0.N, _)

/-- The probabilities' window at point t: batch entry t / 16. -/
theorem index_prob : ∀ t : Fin cfg0.N, win0_2.index t (0 : Fin 3) = t.val / 16 ∧ win0_2.index t (1 : Fin 3) = 0
    ∧ win0_2.index t (2 : Fin 3) = 0 :=
  (by decide +kernel : ∀ t : Fin grid0.N, _)

/-- The output window at point t: batch entry t / 16. -/
theorem index_out : ∀ t : Fin cfg0.N, win0_3.index t (0 : Fin 3) = t.val / 16 ∧ win0_3.index t (1 : Fin 3) = 0
    ∧ win0_3.index t (2 : Fin 3) = 0 :=
  (by decide +kernel : ∀ t : Fin grid0.N, _)

/-! ## The input blocks, entry by entry -/

/-- The encoder block of point t, entry (r, cc): layer (t % 16) / 8, batch entry t / 16, head t % 8 of the argument. -/
theorem iblk0_apply (c : Dev nD) (t : Fin cfg0.N) (r cc : Fin 1025) :
    (iblk m c 0 t : Vec Ideal S1x1x1x1025x1025 .f32) (ix5 0 0 0 r cc)
      = m ((c.tc : Thread nD τ).loc main_arg5)
          (ix5 (Cert.Spec.layerOf (t.val % 16)) (batchOf t) (Cert.Spec.headOf (t.val % 16)) r cc) := by
  obtain ⟨e0, e1, e2, e3, e4⟩ := index_enc t
  have hN : t.val < 64 := lt_of_lt_of_eq t.isLt (show cfg0.N = 64 from N_0)
  unfold iblk
  rw [View.read_apply]
  show V m c main_arg5 _ = _
  rw [V_main_arg5 m c]
  refine congrArg (m ((c.tc : Thread nD τ).loc main_arg5)) (funext fun a => Fin.ext ?_)
  match a with
  | ⟨0, _⟩ => show win0_0.index t (0 : Fin 5) * 1 + 1 * 0 = t.val % 16 / 8 % 2; omega
  | ⟨1, _⟩ => show win0_0.index t (1 : Fin 5) * 1 + 1 * 0 = t.val / 16; omega
  | ⟨2, _⟩ => show win0_0.index t (2 : Fin 5) * 1 + 1 * 0 = t.val % 16 % 8; omega
  | ⟨3, _⟩ => show win0_0.index t (3 : Fin 5) * 1025 + 1 * r.val = r.val; omega
  | ⟨4, _⟩ => show win0_0.index t (4 : Fin 5) * 1025 + 1 * cc.val = cc.val; omega

/-- The decoder block of point t likewise. -/
theorem iblk1_apply (c : Dev nD) (t : Fin cfg0.N) (r cc : Fin 1024) :
    (iblk m c 1 t : Vec Ideal S1x1x1x1024x1024 .f32) (ix5 0 0 0 r cc)
      = m ((c.tc : Thread nD τ).loc main_arg6)
          (ix5 (Cert.Spec.layerOf (t.val % 16)) (batchOf t) (Cert.Spec.headOf (t.val % 16)) r cc) := by
  obtain ⟨e0, e1, e2, e3, e4⟩ := index_dec t
  have hN : t.val < 64 := lt_of_lt_of_eq t.isLt (show cfg0.N = 64 from N_0)
  unfold iblk
  rw [View.read_apply]
  show V m c main_arg6 _ = _
  rw [V_main_arg6 m c]
  refine congrArg (m ((c.tc : Thread nD τ).loc main_arg6)) (funext fun a => Fin.ext ?_)
  match a with
  | ⟨0, _⟩ => show win0_1.index t (0 : Fin 5) * 1 + 1 * 0 = t.val % 16 / 8 % 2; omega
  | ⟨1, _⟩ => show win0_1.index t (1 : Fin 5) * 1 + 1 * 0 = t.val / 16; omega
  | ⟨2, _⟩ => show win0_1.index t (2 : Fin 5) * 1 + 1 * 0 = t.val % 16 % 8; omega
  | ⟨3, _⟩ => show win0_1.index t (3 : Fin 5) * 1024 + 1 * r.val = r.val; omega
  | ⟨4, _⟩ => show win0_1.index t (4 : Fin 5) * 1024 + 1 * cc.val = cc.val; omega

/-- The probabilities' block of point t: batch entry t / 16 of the class probabilities. -/
theorem iblk2_apply (c : Dev nD) (t : Fin cfg0.N) (j : Fin 1024) (cc : Fin 21) :
    (iblk m c 2 t : Vec Ideal S1x1024x21 .f32) (ix3 0 j cc)
      = probK (m ((c.tc : Thread nD τ).loc main_arg0)) (ix3 (batchOf t) j cc) := by
  obtain ⟨e0, e1, e2⟩ := index_prob t
  unfold iblk
  rw [View.read_apply]
  show V m c main_v12 _ = _
  rw [V_prob m c]
  refine congrArg (probK (m ((c.tc : Thread nD τ).loc main_arg0))) (funext fun a => Fin.ext ?_)
  match a with
  | ⟨0, _⟩ => show win0_2.index t (0 : Fin 3) * 1 + 1 * 0 = t.val / 16; omega
  | ⟨1, _⟩ => show win0_2.index t (1 : Fin 3) * 1024 + 1 * j.val = j.val; omega
  | ⟨2, _⟩ => show win0_2.index t (2 : Fin 3) * 21 + 1 * cc.val = cc.val; omega

end Cert.KerSide

end
-- ==== Proof.KAccum.lean ====
/-
  The accumulation across the sixteen grid points of a batch entry.

  The grid's 64 points run batch entry by batch entry, sixteen points each: point t handles batch entry t / 16, and
  within it layer (t % 16) / 8 and head t % 8. The first point of a batch entry zeroes the accumulator and adds its
  own term, every later one adds its term to what the point before left, and the last one also multiplies the
  total by 2⁻⁵ and by the class probabilities and stores the product. The term point s of a batch entry adds at
  (i, j) is E + D of its layer and head — the encoder's and the decoder's entry over their row sums. So after the
  last point the accumulator holds the sum of the sixteen terms, and what is stored is the specification's
  affinity over the kernel's arrangement of the average.
-/
import proofs.«106885_j6708738916949_1_alg».proof.Proof.KPieces
import proofs.«106885_j6708738916949_1_alg».proof.Proof.KBlocks
import proofs.«106885_j6708738916949_1_alg».proof.Proof.Spec
import Idealize.ShloMosaic.Lib.Pipeline.Value

noncomputable section

namespace Cert.KerSide

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! ## What each point leaves, by the point's place in its batch entry -/

/-- The first point of a batch entry leaves its own term over zero. -/
theorem acc_first (c : Dev nD) (t : Fin cfg0.N) (h0 : t.val % 16 = 0) :
    (outsAt0 m c t.val t.isLt).2
      = stepFn (iblk m c 0 t : Vec Ideal S1x1x1x1025x1025 .f32) (iblk m c 1 t : Vec Ideal S1x1x1x1024x1024 .f32) (fun _ => 0) := by
  have h1 : ¬t.val % 16 = 15 := by omega
  rw [outsAt0_A m c t h0 h1]
  dsimp only
  exact sout_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

/-- Every later point adds its term to what the point before left. -/
theorem acc_later (c : Dev nD) (t : Fin cfg0.N) (h0 : ¬t.val % 16 = 0) :
    (outsAt0 m c t.val t.isLt).2
      = stepFn (iblk m c 0 t : Vec Ideal S1x1x1x1025x1025 .f32) (iblk m c 1 t : Vec Ideal S1x1x1x1024x1024 .f32)
          (outsAt0 m c (t.val - 1) (Nat.lt_of_le_of_lt (Nat.sub_le _ _) t.isLt)).2 := by
  by_cases h1 : t.val % 16 = 15
  · rw [outsAt0_C m c t h0 h1]
    dsimp only
    exact sout_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact sout_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- The last point stores the product of the accumulator it leaves (scaled) with the probabilities' block. -/
theorem out_last (c : Dev nD) (t : Fin cfg0.N) (h1 : t.val % 16 = 15) :
    (outsAt0 m c t.val t.isLt).1
      = k0_pay1 (F := Ideal) (outsAt0 m c t.val t.isLt).2 (iblk m c 2 t : Vec Ideal S1x1024x21 .f32) := by
  have h0 : ¬t.val % 16 = 0 := by omega
  rw [acc_later m c t h0, outsAt0_C m c t h0 h1]
  dsimp only
  exact out_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-! ## The fold over a batch entry's points -/

/-- What the first point of a run leaves. -/
def accReset (c : Dev nD) (n : ℕ) (h : n < cfg0.N) : S1024x1024.Idx → EReal :=
  stepFn (iblk m c 0 ⟨n, h⟩ : Vec Ideal S1x1x1x1025x1025 .f32) (iblk m c 1 ⟨n, h⟩ : Vec Ideal S1x1x1x1024x1024 .f32) (fun _ => 0)

/-- What a later point makes of what it found. -/
def accStep (c : Dev nD) (n : ℕ) (h : n < cfg0.N) (acc : S1024x1024.Idx → EReal) : S1024x1024.Idx → EReal :=
  stepFn (iblk m c 0 ⟨n, h⟩ : Vec Ideal S1x1x1x1025x1025 .f32) (iblk m c 1 ⟨n, h⟩ : Vec Ideal S1x1x1x1024x1024 .f32) acc

/-- The term point n adds, at an entry (zero past the grid, where it is never used). -/
def addend (c : Dev nD) (n : ℕ) (y : S1024x1024.Idx) : EReal :=
  if h : n < cfg0.N then
    encN (iblk m c 0 ⟨n, h⟩ : Vec Ideal S1x1x1x1025x1025 .f32) (y 0) (y 1)
      + decN (iblk m c 1 ⟨n, h⟩ : Vec Ideal S1x1x1x1024x1024 .f32) (y 0) (y 1)
  else 0

/-- After any point, the accumulator is the fold over the point's batch entry so far. -/
theorem acc_eq_fold (c : Dev nD) (t : Fin cfg0.N) (h' : 16 * (t.val / 16) + t.val % 16 < cfg0.N) :
    (outsAt0 m c t.val t.isLt).2 = Pipeline.accAt (accReset m c) (accStep m c) (16 * (t.val / 16)) (t.val % 16) h' :=
  Pipeline.eq_accAt_of_mod (N := cfg0.N) (fun n h => (outsAt0 m c n h).2) 16 (accReset m c) (accStep m c)
    (fun n h hn => acc_first m c ⟨n, h⟩ hn)
    (fun n h hn => acc_later m c ⟨n + 1, h⟩ hn)
    (by norm_num) t.val t.isLt h'

/-- The fold at an entry: the sum of the terms of the run's points. -/
theorem fold_apply (c : Dev nD) (b j : ℕ) (hj : j ≤ 15) (h : b + j < cfg0.N) (y : S1024x1024.Idx) :
    Pipeline.accAt (accReset m c) (accStep m c) b j h y = 0 + ∑ s ∈ Finset.range (j + 1), addend m c (b + s) y :=
  Pipeline.accAt_add_apply (N := cfg0.N) (ι := S1024x1024.Idx) (β := EReal) (accReset m c) (accStep m c) (fun _ => 0) (addend m c) b 15
    (fun hb i => by unfold accReset stepFn addend; rw [dif_pos hb])
    (fun n hn acc i _ _ => by unfold accStep stepFn addend; rw [dif_pos hn])
    j hj h y

/-! ## A point's term is its layer's and head's entry of the two row-normalised maps -/

/-- The encoder block of a point, entry over row sum, is the specification's E at the point's layer, batch entry and head. -/
theorem encN_blk (c : Dev nD) (t' : Fin cfg0.N) (s : ℕ) (q : Fin 4) (hs : t'.val % 16 = s) (hq : t'.val / 16 = q.val) (i j : Fin 1024) :
    encN (iblk m c 0 t' : Vec Ideal S1x1x1x1025x1025 .f32) i j
      = Cert.Spec.E (m ((c.tc : Thread nD τ).loc main_arg5)) (Cert.Spec.layerOf s) q (Cert.Spec.headOf s) i j := by
  subst hs
  obtain rfl : batchOf t' = q := Fin.ext hq
  unfold encN Cert.Spec.E
  rw [iblk0_apply m c t' (Cert.Spec.up i) (Cert.Spec.up j)]
  exact congrArg (Ideal.div _) (Finset.sum_congr rfl fun k _ => iblk0_apply m c t' (Cert.Spec.up i) (Cert.Spec.up k))

/-- The decoder block of a point likewise is the specification's D. -/
theorem decN_blk (c : Dev nD) (t' : Fin cfg0.N) (s : ℕ) (q : Fin 4) (hs : t'.val % 16 = s) (hq : t'.val / 16 = q.val) (i j : Fin 1024) :
    decN (iblk m c 1 t' : Vec Ideal S1x1x1x1024x1024 .f32) i j
      = Cert.Spec.D (m ((c.tc : Thread nD τ).loc main_arg6)) (Cert.Spec.layerOf s) q (Cert.Spec.headOf s) i j := by
  subst hs
  obtain rfl : batchOf t' = q := Fin.ext hq
  unfold decN Cert.Spec.D
  rw [iblk1_apply m c t' i j]
  exact congrArg (Ideal.div _) (Finset.sum_congr rfl fun k _ => iblk1_apply m c t' i k)

/-- The term of point s of t's batch entry. -/
theorem addend_eq (c : Dev nD) (t : Fin cfg0.N) (s : ℕ) (hs : s < 16) (i j : Fin 1024) :
    addend m c (16 * (t.val / 16) + s) (ix2 i j)
      = Cert.Spec.E (m ((c.tc : Thread nD τ).loc main_arg5)) (Cert.Spec.layerOf s) (batchOf t) (Cert.Spec.headOf s) i j
        + Cert.Spec.D (m ((c.tc : Thread nD τ).loc main_arg6)) (Cert.Spec.layerOf s) (batchOf t) (Cert.Spec.headOf s) i j := by
  have hN : cfg0.N = 64 := N_0
  have htl : t.val < cfg0.N := t.isLt
  have hlt : 16 * (t.val / 16) + s < cfg0.N := by omega
  unfold addend
  rw [dif_pos hlt]
  show encN (iblk m c 0 ⟨16 * (t.val / 16) + s, hlt⟩ : Vec Ideal S1x1x1x1025x1025 .f32) i j
      + decN (iblk m c 1 ⟨16 * (t.val / 16) + s, hlt⟩ : Vec Ideal S1x1x1x1024x1024 .f32) i j = _
  rw [encN_blk m c ⟨16 * (t.val / 16) + s, hlt⟩ s (batchOf t) (by show (16 * (t.val / 16) + s) % 16 = s; omega)
      (by show (16 * (t.val / 16) + s) / 16 = t.val / 16; omega) i j,
    decN_blk m c ⟨16 * (t.val / 16) + s, hlt⟩ s (batchOf t) (by show (16 * (t.val / 16) + s) % 16 = s; omega)
      (by show (16 * (t.val / 16) + s) / 16 = t.val / 16; omega) i j]

/-- After the last point of a batch entry the accumulator holds the sum of the sixteen points' terms. -/
theorem acc_last (c : Dev nD) (t : Fin cfg0.N) (ht : t.val % 16 = 15) (i j : Fin 1024) :
    ((outsAt0 m c t.val t.isLt).2 : Vec Ideal S1024x1024 .f32) (ix2 i j)
      = ∑ s ∈ Finset.range 16,
          (Cert.Spec.E (m ((c.tc : Thread nD τ).loc main_arg5)) (Cert.Spec.layerOf s) (batchOf t) (Cert.Spec.headOf s) i j
            + Cert.Spec.D (m ((c.tc : Thread nD τ).loc main_arg6)) (Cert.Spec.layerOf s) (batchOf t) (Cert.Spec.headOf s) i j) := by
  have h' : 16 * (t.val / 16) + t.val % 16 < cfg0.N := by rw [Nat.div_add_mod]; exact t.isLt
  have e16 : t.val % 16 + 1 = 16 := by omega
  rw [acc_eq_fold m c t h', fold_apply m c (16 * (t.val / 16)) (t.val % 16) (by omega) h' (ix2 i j), zero_add, e16]
  exact Finset.sum_congr rfl fun s hs => addend_eq m c t s (Finset.mem_range.mp hs) i j

/-! ## What the last point stores -/

/-- At the last point of a batch entry the output's staging buffer holds the affinity of that batch entry: the
    kernel's arrangement of the averaged attention times the class probabilities. -/
theorem out_flush (m : (ℓ : Loc nD τ sig) → Buf (Elt Ideal) ℓ) (c : Dev nD) (t : Fin cfg0.N) (ht : t.val % 16 = 15) (i : Fin 1024) (cc : Fin 21) :
    ((outsAt0 m c t.val t.isLt).1 : Vec Ideal S1x1024x21 .f32) (ix3 0 i cc)
      = Cert.Spec.affinity (Cert.Spec.attnKer (m ((c.tc : Thread nD τ).loc main_arg5)) (m ((c.tc : Thread nD τ).loc main_arg6)))
          (probK (m ((c.tc : Thread nD τ).loc main_arg0))) (ix3 (batchOf t) i cc) := by
  rw [out_last m c t ht, pay1_apply]
  show _ = ∑ j : Fin 1024, Cert.Spec.attnKer (m ((c.tc : Thread nD τ).loc main_arg5)) (m ((c.tc : Thread nD τ).loc main_arg6)) (batchOf t) i j * probK (m ((c.tc : Thread nD τ).loc main_arg0)) (ix3 (batchOf t) j cc)
  refine Finset.sum_congr rfl fun j _ => ?_
  rw [acc_last m c t ht i j, iblk2_apply m c t j cc, Cert.AvgLaw.ofBits_inv32]
  rfl

end Cert.KerSide

end
-- ==== Proof.KFinal.lean ====
/-
  The host side of the kernel program, part two: from what the output's staging buffer holds at the points that
  write back to the output array after the run.

  The output [4, 1024, 21] is written back one batch entry at a time, at the last of each batch entry's sixteen
  points (t % 16 = 15). If at each such point the staging buffer holds batch entry t / 16 of one array `G`, the four
  write-backs tile the output and it ends holding `G`.
-/
import proofs.«106885_j6708738916949_1_alg».proof.Proof.KBlocks

noncomputable section

namespace Cert.KerSide

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- An index of one batch entry's block is (0, i, cc). -/
theorem idx_block (y : S1x1024x21.Idx) : ∃ (i : Fin 1024) (cc : Fin 21), y = ix3 0 i cc :=
  ⟨y 1, y 2, by
    funext a
    match a with
    | ⟨0, _⟩ => exact Fin.ext (by have h : (y 0).val < 1 := (y 0).isLt; show (y 0).val = 0; omega)
    | ⟨1, _⟩ => rfl
    | ⟨2, _⟩ => rfl⟩

/-- What a point that writes back writes: batch entry t / 16 of `G`, when its staging buffer holds that. -/
theorem flushed_eq (G : (c : Dev nD) → Buf (Elt Ideal) ((c.tc : Thread nD τ).loc main_v13))
    (hG : ∀ (c : Dev nD) (t : Fin cfg0.N), t.val % 16 = 15 → ∀ (i : Fin 1024) (cc : Fin 21),
        ((outsAt0 m c t.val t.isLt).1 : Vec Ideal S1x1024x21 .f32) (ix3 0 i cc) = G c (ix3 (batchOf t) i cc))
    (c : Dev nD) (t : Fin cfg0.N) (hf : (cfg0.win 3).flush t = true) :
    (dats m 0 c).flushed 3 t = ((cfg0.win 3).blk t).view.read (Elt Ideal) (G c) := by
  have h15 : t.val % 16 = 15 := (flush0_3 t).mp hf
  obtain ⟨e0, e1, e2⟩ := index_out t
  show (cfg0.win 3).cut (grid0.coords t) ((dats m 0 c).after 3 t) = _
  rw [after0_3]
  show ((outsAt0 m c t.val t.isLt).1 : Vec Ideal S1x1024x21 .f32)
    = (fun y : S1x1024x21.Idx => G c (((cfg0.win 3).blk t).view.emb y))
  funext y
  obtain ⟨i, cc, rfl⟩ := idx_block y
  refine (hG c t h15 i cc).trans (congrArg (G c) (funext fun a => Fin.ext ?_))
  match a with
  | ⟨0, _⟩ => show t.val / 16 = win0_3.index t (0 : Fin 3) * 1 + 1 * 0; omega
  | ⟨1, _⟩ => show i.val = win0_3.index t (1 : Fin 3) * 1024 + 1 * i.val; omega
  | ⟨2, _⟩ => show cc.val = win0_3.index t (2 : Fin 3) * 21 + 1 * cc.val; omega

/-- An index of the output lies in the block of any point of its batch entry. -/
theorem mem_blk_out (t : Fin cfg0.N) (i : S4x1024x21.Idx) (h : (i 0).val = t.val / 16) :
    i ∈ ((cfg0.win 3).blk t).view.set := by
  obtain ⟨e0, e1, e2⟩ := index_out t
  show i ∈ ((View.whole main_v13).slice (win0_3.rect t)).set
  rw [View.set_slice_whole, Rect.mem_set_unit]
  intro a
  have h1 : (i 1).val < 1024 := (i 1).isLt
  have h2 : (i 2).val < 21 := (i 2).isLt
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 21 ≤ (i 2).val ∧ (i 2).val < win0_3.index t (2 : Fin 3) * 21 + 21; omega

/-- From the write-back points' staging contents to the output array: if at every point that writes back the output's
    staging buffer holds batch entry t / 16 of `G`, the array ends at `G`. -/
theorem final_of (G : (c : Dev nD) → Buf (Elt Ideal) ((c.tc : Thread nD τ).loc main_v13))
    (hG : ∀ (c : Dev nD) (t : Fin cfg0.N), t.val % 16 = 15 → ∀ (i : Fin 1024) (cc : Fin 21),
        ((outsAt0 m c t.val t.isLt).1 : Vec Ideal S1x1024x21 .f32) (ix3 0 i cc) = G c (ix3 (batchOf t) i cc)) :
    ∀ c : Dev nD, (dats m 0 c).arrAt 3 cfg0.N = G c := fun c =>
  (dats m 0 c).arrAt_eq_of_cover 3 (G c) (flushed_eq m G hG c) fun i => by
    have hN : cfg0.N = 64 := N_0
    have h0 : (i 0).val < 4 := (i 0).isLt
    have hlt : 16 * (i 0).val + 15 < cfg0.N := by omega
    exact ⟨⟨16 * (i 0).val + 15, hlt⟩, (flush0_3 _).mpr (by show (16 * (i 0).val + 15) % 16 = 15; omega),
      mem_blk_out ⟨16 * (i 0).val + 15, hlt⟩ i (by show (i 0).val = (16 * (i 0).val + 15) / 16; omega)⟩

end Cert.KerSide

end
-- ==== Proof.KHost.lean ====
/-
  The host side of the kernel program, part three: the last stage as one function, and the whole run.

  After the region the host normalises the affinity along the class axis, takes |P − affinity/∑|, weights it by the
  integer mask read as floats, sums everything, and divides by the mask's total when that is positive (a select);
  a final multiplication by one. All of it is carried as the single function `tailK` of the mask, the class
  probabilities and the region's result, and is never opened: the run's result is `tailK` of the launch arguments
  and of whatever array the region is shown to leave.
-/
import proofs.«106885_j6708738916949_1_alg».proof.Proof.KBlocks

noncomputable section

namespace Cert.KerSide

open Cert.KernelIdeal Cert.KernelIdeal.Gen Idealize.ShloMosaic Idealize.ShloMosaic.TcCoe Idealize.SL.Sem
open Idealize.ShloMosaic.Pipeline (Dat)
open Idealize.ShloMosaic.ValueIdx

/-- The last stage: the affinity normalised along the class axis, the absolute difference from the class
    probabilities weighted by the mask and summed, and the guarded quotient by the mask's total — the host operations
    after the region as ONE term in the integer mask `a3`, the probabilities `P` and the region's result `aff`.
    Never opened. -/
def tailK (a3 : (⟨S4x32x32, .i32⟩ : BufTy).Contents (Elt Ideal)) (P aff : (⟨S4x1024x21, .f32⟩ : BufTy).Contents (Elt Ideal)) :
    (⟨S_, .f32⟩ : BufTy).Contents (Elt Ideal) :=
  let zero : FVec Ideal S_ .f32 := constant (F := Ideal) S_ .f32 0x00000000#32
  let one : FVec Ideal S_ .f32 := constant (F := Ideal) S_ .f32 0x3F800000#32
  let v14 : FVec Ideal S4x1024 .f32 := Host.reduceAdd (F := Ideal) aff zero reducesTo_S4x1024x21_S4x1024_d2 h_S_
  let v15 : FVec Ideal S4x1024x1 .f32 := broadcastInDim S4x1024x1 ![0, 1] bcast_S4x1024_S4x1024x1_0_1 v14
  let v16 : FVec Ideal S4x1024x21 .f32 := broadcastInDim S4x1024x21 ![0, 1, 2] bcast_S4x1024x1_S4x1024x21_0_1_2 v15
  let v17 : FVec Ideal S4x1024x21 .f32 := Host.divf (F := Ideal) aff v16
  let v18 : FVec Ideal S4x32x32 .f32 := sitofp (F := Ideal) .f32 a3
  let v19 : FVec Ideal S4x1024x1 .f32 := shapeCast S4x1024x1 v18 shapeCasts_S4x32x32_S4x1024x1
  let v20 : FVec Ideal S_ .f32 := Host.reduceAdd (F := Ideal) v19 zero reducesTo_S4x1024x1_S_d0_1_2 h_S_
  let v21 : FVec Ideal S4x1024x21 .f32 := subf (F := Ideal) P v17
  let v22 : FVec Ideal S4x1024x21 .f32 := Host.absf (F := Ideal) v21
  let v23 : FVec Ideal S4x1024x21 .f32 := broadcastInDim S4x1024x21 ![0, 1, 2] bcast_S4x1024x1_S4x1024x21_0_1_2 v19
  let v24 : FVec Ideal S4x1024x21 .f32 := mulf (F := Ideal) v23 v22
  let v25 : FVec Ideal S_ .f32 := Host.reduceAdd (F := Ideal) v24 zero reducesTo_S4x1024x21_S_d0_1_2 h_S_
  let v26 : IVec S_ 1 := cmpf (F := Ideal) .ogt v20 zero
  let v27 : FVec Ideal S_ .f32 := Host.divf (F := Ideal) v25 v20
  let v28 : FVec Ideal S_ .f32 := select v26 v27 v25
  mulf (F := Ideal) one v28

variable (m : (ℓ : Loc nD τ sig) → Buf (Elt Ideal) ℓ)

/-- What the last host operation leaves: `tailK` of the mask as launched, the class probabilities and the output
    array after the region. -/
theorem tail_value (G : (c : Dev nD) → Buf (Elt Ideal) ((c.tc : Thread nD τ).loc main_v13))
    (hfin : ∀ c : Dev nD, (dats m 0 c).arrAt 3 cfg0.N = G c) (c : Dev nD) :
    Pipeline.afterTail₀ cfgs (dats m) 0 (V0 m) [hostOps1, hostOps1_1, hostOps1_2] c main_v29
      = tailK (m ((c.tc : Thread nD τ).loc main_arg3)) (probK (m ((c.tc : Thread nD τ).loc main_arg0))) (G c) := by
  have h13 := (Pipeline.withArrays_arr spec0 launch0.win.arr_inj c (V0 m c) (fun w => (dats m 0 c).arrAt w cfg0.N) 3).trans (hfin c)
  have h12 := (Pipeline.withArrays_arr spec0 launch0.win.arr_inj c (V0 m c) (fun w => (dats m 0 c).arrAt w cfg0.N) 2).trans
    (((dats m 0 c).arrAt_in 2 rfl _).trans ((A_eq m c 2).trans (V_prob m c)))
  have h3 := (Pipeline.withArrays_of_ne spec0 c (V0 m c) (fun w => (dats m 0 c).arrAt w cfg0.N) main_arg3
    (by exact (by decide : ∀ w, Pipeline.arrRef spec0 w ≠ main_arg3))).trans (V_main_arg3 m c)
  unfold Pipeline.afterTail₀
  revert h13 h12 h3
  generalize Pipeline.withArrays spec0 c (V0 m c) (fun w => (dats m 0 c).arrAt w cfg0.N) = W
  intro h13 h12 h3
  simp only [Gen.hostOps1, Gen.hostOps1_1, Gen.hostOps1_2, List.flatten_cons, List.flatten_nil, List.append_nil, List.cons_append,
    List.nil_append]
  after_results_simp
  rw [h13, h12, h3]
  dsimp only [StableHlo.TRef.toBuf, StableHlo.TRef.ofBuf, cast_eq]
  unfold tailK
  rfl

/-- The kernel program's run, its result named through the two functions and the region's result array. -/
theorem kernel_run_of (ρ : Dev nD → PrngReg) (G : (c : Dev nD) → Buf (Elt Ideal) ((c.tc : Thread nD τ).loc main_v13))
    (hfin : ∀ c : Dev nD, (dats m 0 c).arrAt 3 cfg0.N = G c) :
    θ_run (defs (F := Ideal)) (onTc (τ := τ) (main (F := Ideal))) ⟨m, fun _ => 0, ρ⟩ fun r => ∀ c : Dev nD,
      r.2.mem ((c.tc : Thread nD τ).loc main_v29)
          = tailK (m ((c.tc : Thread nD τ).loc main_arg3)) (probK (m ((c.tc : Thread nD τ).loc main_arg0))) (G c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v29 (Pipeline.mem_restRefs_of main_v29 (by decide) (by decide))).trans (tail_value m G hfin c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 0).trans (((dats m 0 c).arrAt_in 0 rfl _).trans ((A_eq m c 0).trans (V_main_arg5 m c))),
      ((h c).1 1).trans (((dats m 0 c).arrAt_in 1 rfl _).trans ((A_eq m c 1).trans (V_main_arg6 m c)))⟩)
    (run_main (F := Ideal) m ρ)

end Cert.KerSide

end
-- ==== Proof.Bridge.lean ====
/-
  The two programs' shared stages are one term, and their results are one number.

  Both programs compute the class probabilities by the same thirteen host operations and end with the same
  sixteen; each side carries them as one function (`probK` / `probR`, `tailK` / `tailR`). Here, and only here,
  the two spellings are opened side by side and seen to be the same term: the shapes are the same literal shapes,
  and the side conditions the operations cite are propositions. With the affinity of each side already reduced to
  the specification's — over the reference's arrangement of the averaged attention on one side, the kernel's on
  the other — and the two arrangements equal, the two results are equal.
-/
import proofs.«106885_j6708738916949_1_alg».proof.Proof.RefValue
import proofs.«106885_j6708738916949_1_alg».proof.Proof.KBlocks
import proofs.«106885_j6708738916949_1_alg».proof.Proof.KHost
import proofs.«106885_j6708738916949_1_alg».proof.Proof.Spec

noncomputable section

namespace Cert.Bridge

open Idealize.ShloMosaic

/-- The class probabilities of the two programs are one function: the same softmax over the classes, reshape and
    transpose, operation for operation. -/
theorem prob_eq (a0 : (⟨Cert.ReferenceIdeal.S4x21x32x32, .f32⟩ : BufTy).Contents (Elt Ideal)) :
    Cert.KerSide.probK a0 = Cert.RefSide.probR a0 := by
  unfold Cert.KerSide.probK Cert.RefSide.probR
    Cert.ReferenceIdeal.ReadP.val_main_v34
    Cert.ReferenceIdeal.ReadP.val_main_v33
    Cert.ReferenceIdeal.ReadP.val_main_v32
    Cert.ReferenceIdeal.ReadP.val_main_v31
    Cert.ReferenceIdeal.ReadP.val_main_v30
    Cert.ReferenceIdeal.ReadP.val_main_v29
    Cert.ReferenceIdeal.ReadP.val_main_v28
    Cert.ReferenceIdeal.ReadP.val_main_v27
    Cert.ReferenceIdeal.ReadP.val_main_v26
    Cert.ReferenceIdeal.ReadP.val_main_v25
    Cert.ReferenceIdeal.ReadP.val_main_v24
    Cert.ReferenceIdeal.ReadP.val_main_v23
    Cert.ReferenceIdeal.ReadP.val_main_v22
    Cert.ReferenceIdeal.ReadP.val_main_cst_10
    Cert.ReferenceIdeal.ReadP.val_main_cst_9
    Cert.ReferenceIdeal.ReadP.val_main_cst_8
  rfl

/-- The last stage of the two programs is one function: the same sixteen host operations, operation for operation. -/
theorem tail_eq (a3 : (⟨Cert.ReferenceIdeal.S4x32x32, .i32⟩ : BufTy).Contents (Elt Ideal))
    (P aff : (⟨Cert.ReferenceIdeal.S4x1024x21, .f32⟩ : BufTy).Contents (Elt Ideal)) :
    Cert.KerSide.tailK a3 P aff = Cert.RefSide.tailR a3 P aff := by
  unfold Cert.KerSide.tailK Cert.RefSide.tailR
  rfl

/-- The two programs' results are one number: the reference's affinity is the specification's over its own
    arrangement of the averaged attention, the two arrangements are equal entry by entry, and the stages around
    the affinity are shared. -/
theorem result_eq (a0 : (⟨Cert.ReferenceIdeal.S4x21x32x32, .f32⟩ : BufTy).Contents (Elt Ideal))
    (a3 : (⟨Cert.ReferenceIdeal.S4x32x32, .i32⟩ : BufTy).Contents (Elt Ideal))
    (x5 : (⟨Cert.ReferenceIdeal.S2x4x8x1025x1025, .f32⟩ : BufTy).Contents (Elt Ideal))
    (x6 : (⟨Cert.ReferenceIdeal.S2x4x8x1024x1024, .f32⟩ : BufTy).Contents (Elt Ideal)) :
    Cert.RefSide.tailR a3 (Cert.RefSide.probR a0) (Cert.RefSide.affR x5 x6 (Cert.RefSide.probR a0))
      = Cert.KerSide.tailK a3 (Cert.KerSide.probK a0) (Cert.Spec.affinity (Cert.Spec.attnKer x5 x6) (Cert.KerSide.probK a0)) := by
  have hattn : Cert.Spec.attnRef x5 x6 = Cert.Spec.attnKer x5 x6 :=
    funext fun b => funext fun i => funext fun j => Cert.Spec.attn_eq x5 x6 b i j
  rw [Cert.RefSide.affR_eq, hattn, prob_eq, tail_eq]

end Cert.Bridge

end
-- ==== Proof.Claims.lean ====
/-
  The five claims.

  The three frames: the kernel program's two readings by their generated frames, the reference's by its run with
  the result dropped. The idealisation rewrote nothing, so that conjunct is trivial.

  The value claim. Both programs compute the class probabilities P = softmax(logits) by the same host operations,
  an affinity A(b, i, cc) = ∑ⱼ attn(b, i, j) · P(b, j, cc), and from P, A and the integer mask the same last stage
  (normalise A over the classes, |P − A|, weight by the mask, sum, divide by the mask's total when it is positive).
  They differ only in how attn, the average over 2 layers and 8 heads of the row-normalised encoder and decoder
  attention maps, is arranged: the reference as ((∑ e)/16 · 2 + (∑ d)/16 · 2)/4, the kernel by accumulating e + d
  over sixteen grid points per batch entry and scaling by 2⁻⁵ before the product. Over the extended reals these are
  one number whatever the entries (a non-negative real factor distributes over any sum), so no finiteness is used:
  the precondition is never opened.
  The kernel's run ends with its result at the last stage of (P, A over the kernel's arrangement); the reference's at
  the last stage of (P, A over the reference's arrangement) of arguments that agree; `Cert.Bridge.result_eq` says
  these are the same extended real.
-/
import proofs.«106885_j6708738916949_1_alg».proof.Defs
import proofs.«106885_j6708738916949_1_alg».proof.Proof.Gen.Kernel.Frame
import proofs.«106885_j6708738916949_1_alg».proof.Proof.Gen.KernelIdeal.Frame
import proofs.«106885_j6708738916949_1_alg».proof.Proof.Gen.Pre_finite_inputs
import proofs.«106885_j6708738916949_1_alg».proof.Proof.RefValue
import proofs.«106885_j6708738916949_1_alg».proof.Proof.KAccum
import proofs.«106885_j6708738916949_1_alg».proof.Proof.KFinal
import proofs.«106885_j6708738916949_1_alg».proof.Proof.KHost
import proofs.«106885_j6708738916949_1_alg».proof.Proof.Bridge

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- What the region's result array ends holding: the affinity over the kernel's arrangement of the average. -/
abbrev regionResult (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v13) :=
  Cert.Spec.affinity (Cert.Spec.attnKer (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (Cert.KerSide.probK (m ((c.tc : Thread Cert.KernelIdeal.nD Cert.KernelIdeal.τ).loc Cert.KernelIdeal.main_arg0)))

theorem algebraic : Cert.algebraic_KernelIdeal_ReferenceIdeal := by
  intro m ρ m' ρ' _ hagree
  refine ⟨fun c => Cert.KerSide.tailK (m ((c.tc : Thread Cert.KernelIdeal.nD Cert.KernelIdeal.τ).loc Cert.KernelIdeal.main_arg3)) (Cert.KerSide.probK (m ((c.tc : Thread Cert.KernelIdeal.nD Cert.KernelIdeal.τ).loc Cert.KernelIdeal.main_arg0))) (regionResult m c),
    Cert.KerSide.kernel_run_of m ρ (regionResult m)
      (Cert.KerSide.final_of m (regionResult m) (fun c t ht i cc => Cert.KerSide.out_flush m c t ht i cc)), ?_⟩
  refine (θ_run Cert.ReferenceIdeal.defs _ _).mono (fun _ h c => ⟨(h c).1.trans ?_, (h c).2⟩)
    (Cert.RefSide.ref_run m' ρ')
  obtain ⟨e0, _, _, e3, _, e5, e6⟩ := hagree c
  rw [e0, e3, e5, e6]
  exact Cert.Bridge.result_eq _ _ _ _

end Cert.Proof.Claims

end
-- ==== Proof.lean ====
/-
  The certificate's assembly: the witnesses of the three programs' and the precondition's stated facts (the instances
  the generated modules prove), then the five claims of Proof/Claims.lean — the three frames, the (trivial)
  idealisation conjunct, and the value claim that the kernel program and the reference, read over the extended reals,
  end with the same loss.
-/
import proofs.«106885_j6708738916949_1_alg».proof.Defs
import proofs.«106885_j6708738916949_1_alg».proof.Proof.Gen.Kernel
import proofs.«106885_j6708738916949_1_alg».proof.Proof.Gen.Kernel.Skeleton
import proofs.«106885_j6708738916949_1_alg».proof.Proof.Gen.Kernel.Launch
import proofs.«106885_j6708738916949_1_alg».proof.Proof.Gen.Kernel.Points
import proofs.«106885_j6708738916949_1_alg».proof.Proof.Gen.Kernel.Frame
import proofs.«106885_j6708738916949_1_alg».proof.Proof.Gen.KernelIdeal
import proofs.«106885_j6708738916949_1_alg».proof.Proof.Gen.KernelIdeal.Skeleton
import proofs.«106885_j6708738916949_1_alg».proof.Proof.Gen.KernelIdeal.Launch
import proofs.«106885_j6708738916949_1_alg».proof.Proof.Gen.KernelIdeal.Points
import proofs.«106885_j6708738916949_1_alg».proof.Proof.Gen.KernelIdeal.Frame
import proofs.«106885_j6708738916949_1_alg».proof.Proof.Gen.ReferenceIdeal
import proofs.«106885_j6708738916949_1_alg».proof.Proof.Gen.Pre_finite_inputs
import proofs.«106885_j6708738916949_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
